-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S800000 : Shape := ⟨1, ![800000]⟩
abbrev S3x96x64 : Shape := ⟨3, ![3, 96, 64]⟩
abbrev S64 : Shape := ⟨1, ![64]⟩
abbrev S3x64x64 : Shape := ⟨3, ![3, 64, 64]⟩
abbrev S64x2 : Shape := ⟨2, ![64, 2]⟩
abbrev S2 : Shape := ⟨1, ![2]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S800000 : S_.BroadcastsInDim S800000 (![] : Fin 0 → Fin S800000.rank)
  reducesTo_S800000_S_d0 : S800000.ReducesTo [0] S_
  bcast_S_S3x96x64 : S_.BroadcastsInDim S3x96x64 (![] : Fin 0 → Fin S3x96x64.rank)
  reducesTo_S3x96x64_S_d0_1_2 : S3x96x64.ReducesTo [0, 1, 2] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S2 .f32) (main_v33 : IVec S_ 1) : IVec S_ 1 :=
  let main_v34 : FVec F S2 .f32 := Host.absf main_arg8
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg5 : FVec F S3x64x64 .f32) (main_arg6 : FVec F S64 .f32) (main_arg7 : FVec F S64x2 .f32) (main_arg8 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S3x64x64 .f32 := Host.absf main_arg5
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x2 .f32 := Host.absf main_arg7
  let main_cst_10 : FVec F S_ .f32 := constant S_ .f32 0x7F800000#32
  let main_v30 : FVec F S64x2 .f32 := broadcastInDim S64x2 ![] bcast_S_S64x2 main_cst_10
  let main_v31 : IVec S64x2 1 := cmpf .olt main_v29 main_v30
  let main_c_11 : IVec S_ 1 := constantI S_ 1 1#1
  let main_v32 : IVec S_ 1 := (fun x v => Host.reduce IntOp.andi x v reducesTo_S64x2_S_d0_1 h_S_) main_v31 main_c_11
  let main_v33 : IVec S_ 1 := andi main_v28 main_v32
  fn_part2 (F := F) main_arg8 main_v33

def fn {F : FTy → Type} [FloatOps F] (main_arg0 : FVec F S50000x96 .f32) (main_arg1 : IVec S2x800000 32) (main_arg2 : FVec F S800000 .f32) (main_arg3 : FVec F S3x96x64 .f32) (main_arg4 : FVec F S64 .f32) (main_arg5 : FVec F S3x64x64 .f32) (main_arg6 : FVec F S64 .f32) (main_arg7 : FVec F S64x2 .f32) (main_arg8 : FVec F S2 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S3x96x64 .f32 := Host.absf main_arg3
  let main_cst_2 : FVec F S_ .f32 := constant S_ .f32 0x7F800000#32
  let main_v10 : FVec F S3x96x64 .f32 := broadcastInDim S3x96x64 ![] bcast_S_S3x96x64 main_cst_2
  let main_v11 : IVec S3x96x64 1 := cmpf .olt main_v9 main_v10
  let main_c_3 : IVec S_ 1 := constantI S_ 1 1#1
  let main_v12 : IVec S_ 1 := (fun x v => Host.reduce IntOp.andi x v reducesTo_S3x96x64_S_d0_1_2 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S50000x96 : Shape := ⟨2, ![50000, 96]⟩
abbrev S2x800000 : Shape := ⟨2, ![2, 800000]⟩
abbrev S800000 : Shape := ⟨1, ![800000]⟩
abbrev S3x96x64 : Shape := ⟨3, ![3, 96, 64]⟩
abbrev S64 : Shape := ⟨1, ![64]⟩
abbrev S3x64x64 : Shape := ⟨3, ![3, 64, 64]⟩
abbrev S64x2 : Shape := ⟨2, ![64, 2]⟩
abbrev S2 : Shape := ⟨1, ![2]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x96 : Shape := ⟨2, ![800000, 96]⟩
abbrev S1x64 : Shape := ⟨2, ![1, 64]⟩
abbrev S50000x64 : Shape := ⟨2, ![50000, 64]⟩
abbrev S2000x96 : Shape := ⟨2, ![2000, 96]⟩
abbrev S2000x64 : Shape := ⟨2, ![2000, 64]⟩
abbrev S1x96x64 : Shape := ⟨3, ![1, 96, 64]⟩
abbrev S96x64 : Shape := ⟨2, ![96, 64]⟩
abbrev S800000x64 : Shape := ⟨2, ![800000, 64]⟩
abbrev S1x2 : Shape := ⟨2, ![1, 2]⟩
abbrev S50000x2 : Shape := ⟨2, ![50000, 2]⟩
abbrev S2000x2 : Shape := ⟨2, ![2000, 2]⟩
abbrev S1x64x64 : Shape := ⟨3, ![1, 64, 64]⟩
abbrev S64x64 : Shape := ⟨2, ![64, 64]⟩

abbrev nBuf : Space → Nat
  | .hbm => 139
  | .vmem => 22
  | .smem => 0
  | _ => 0

abbrev hbmTy0_0 (i : Nat) : BufTy := match i % 128 with
  | 0 => ⟨S50000x96, .f32⟩
  | 1 => ⟨S2x800000, .i32⟩
  | 2 => ⟨S800000, .f32⟩
  | 3 => ⟨S3x96x64, .f32⟩
  | 4 => ⟨S64, .f32⟩
  | 5 => ⟨S3x64x64, .f32⟩
  | 6 => ⟨S64, .f32⟩
  | 7 => ⟨S64x2, .f32⟩
  | 8 => ⟨S2, .f32⟩
  | 9 => ⟨S1x800000, .i32⟩
  | 10 => ⟨S800000, .i32⟩
  | 11 => ⟨S1x800000, .i32⟩
  | 12 => ⟨S800000, .i32⟩
  | 13 => ⟨S1x800000, .i32⟩
  | 14 => ⟨S800000, .i32⟩
  | 15 => ⟨S1x800000, .i32⟩
  | 16 => ⟨S800000, .i32⟩
  | 17 => ⟨S800000, .i1⟩
  | 18 => ⟨S_, .f32⟩
  | 19 => ⟨S_, .f32⟩
  | 20 => ⟨S800000, .f32⟩
  | 21 => ⟨S800000, .f32⟩
  | 22 => ⟨S_, .f32⟩
  | 23 => ⟨S50000, .f32⟩
  | 24 => ⟨S800000x1, .i32⟩
  | 25 => ⟨S50000, .f32⟩
  | 26 => ⟨S_, .f32⟩
  | 27 => ⟨S50000, .f32⟩
  | 28 => ⟨S50000, .i1⟩
  | 29 => ⟨S_, .f32⟩
  | 30 => ⟨S50000, .f32⟩
  | 31 => ⟨S50000, .i1⟩
  | 32 => ⟨S_, .f32⟩
  | 33 => ⟨S_, .f32⟩
  | 34 => ⟨S50000, .f32⟩
  | 35 => ⟨S50000, .f32⟩
  | 36 => ⟨S50000, .f32⟩
  | 37 => ⟨S_, .f32⟩
  | 38 => ⟨S_, .f32⟩
  | 39 => ⟨S50000, .f32⟩
  | 40 => ⟨S50000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000, .f32⟩
  | 51 => ⟨S800000, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000, .f32⟩
  | 61 => ⟨S800000, .f32⟩
  | 62 => ⟨S800000x1, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x96, .f32⟩
  | 72 => ⟨S800000x96, .f32⟩
  | 73 => ⟨S800000x96, .f32⟩
  | 74 => ⟨S_, .f32⟩
  | 75 => ⟨S50000x96, .f32⟩
  | 76 => ⟨S800000x1, .i32⟩
  | 77 => ⟨S50000x96, .f32⟩
  | 78 => ⟨S800000x1, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x96, .f32⟩
  | 88 => ⟨S800000x96, .f32⟩
  | 89 => ⟨S800000x96, .f32⟩
  | 90 => ⟨S_, .f32⟩
  | 91 => ⟨S50000x96, .f32⟩
  | 92 => ⟨S800000x1, .i32⟩
  | 93 => ⟨S50000x96, .f32⟩
  | 94 => ⟨S_, .f32⟩
  | 95 => ⟨S50000x96, .f32⟩
  | 96 => ⟨S50000x96, .f32⟩
  | 97 => ⟨S50000x96, .f32⟩
  | 98 => ⟨S1x64, .f32⟩
  | 99 => ⟨S50000x64, .f32⟩
  | 100 => ⟨S800000x1, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000x64, .f32⟩
  | 110 => ⟨S800000x64, .f32⟩
  | 111 => ⟨S800000x64, .f32⟩
  | 112 => ⟨S_, .f32⟩
  | 113 => ⟨S50000x64, .f32⟩
  | 114 => ⟨S800000x1, .i32⟩
  | 115 => ⟨S50000x64, .f32⟩
  | 116 => ⟨S800000x1, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x64, .f32⟩
  | 126 => ⟨S800000x64, .f32⟩
  | 127 => ⟨S800000x64, .f32⟩
  | _ => ⟨S50000x96, .f32⟩

abbrev hbmTy0_1 (i : Nat) : BufTy := match i % 128 with
  | 0 => ⟨S_, .f32⟩
  | 1 => ⟨S50000x64, .f32⟩
  | 2 => ⟨S800000x1, .i32⟩
  | 3 => ⟨S50000x64, .f32⟩
  | 4 => ⟨S_, .f32⟩
  | 5 => ⟨S50000x64, .f32⟩
  | 6 => ⟨S50000x64, .f32⟩
  | 7 => ⟨S50000x64, .f32⟩
  | 8 => ⟨S1x64, .f32⟩
  | 9 => ⟨S1x2, .f32⟩
  | 10 => ⟨S50000x2, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | .local _ .vmem, ⟨0, _⟩ => ⟨S2000x96, .f32⟩
  | .local _ .vmem, ⟨1, _⟩ => ⟨S2000x96, .f32⟩
  | .local _ .vmem, ⟨2, _⟩ => ⟨S2000x96, .f32⟩
  | .local _ .vmem, ⟨3, _⟩ => ⟨S2000x96, .f32⟩
  | .local _ .vmem, ⟨4, _⟩ => ⟨S2000x96, .f32⟩
  | .local _ .vmem, ⟨5, _⟩ => ⟨S2000x96, .f32⟩
  | .local _ .vmem, ⟨6, _⟩ => ⟨S3x96x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S3x64x64, .f32⟩
  | .local _ .vmem, ⟨17, _⟩ => ⟨S1x64, .f32⟩
  | .local _ .vmem, ⟨18, _⟩ => ⟨S64x2, .f32⟩
  | .local _ .vmem, ⟨19, _⟩ => ⟨S1x2, .f32⟩
  | .local _ .vmem, ⟨20, _⟩ => ⟨S2000x2, .f32⟩
  | .local _ .vmem, ⟨21, _⟩ => ⟨S2000x2, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_call1_v0 : Ref sig .tc := ⟨.hbm, 33, rfl⟩
abbrev main_call1_v1 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_call2_v0 : Ref sig .tc := ⟨.hbm, 38, rfl⟩
abbrev main_call2_v1 : Ref sig .tc := ⟨.hbm, 39, rfl⟩
abbrev main_v19 : Ref sig .tc := ⟨.hbm, 40, rfl⟩
abbrev main_c : Ref sig .tc := ⟨.hbm, 41, rfl⟩
abbrev main_v20 : Ref sig .tc := ⟨.hbm, 42, rfl⟩
abbrev main_v21 : Ref sig .tc := ⟨.hbm, 43, rfl⟩
abbrev main_c_5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_6 : Ref sig .tc := ⟨.hbm, 52, rfl⟩
abbrev main_v29 : Ref sig .tc := ⟨.hbm, 53, rfl⟩
abbrev main_v30 : Ref sig .tc := ⟨.hbm, 54, rfl⟩
abbrev main_c_7 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_8 : Ref sig .tc := ⟨.hbm, 63, rfl⟩
abbrev main_v38 : Ref sig .tc := ⟨.hbm, 64, rfl⟩
abbrev main_v39 : Ref sig .tc := ⟨.hbm, 65, rfl⟩
abbrev main_c_9 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_10 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_11 : Ref sig .tc := ⟨.hbm, 79, rfl⟩
abbrev main_v51 : Ref sig .tc := ⟨.hbm, 80, rfl⟩
abbrev main_v52 : Ref sig .tc := ⟨.hbm, 81, rfl⟩
abbrev main_c_12 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_13 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_14 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_15 : Ref sig .tc := ⟨.hbm, 101, rfl⟩
abbrev main_v69 : Ref sig .tc := ⟨.hbm, 102, rfl⟩
abbrev main_v70 : Ref sig .tc := ⟨.hbm, 103, rfl⟩
abbrev main_c_16 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_17 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_c_18 : Ref sig .tc := ⟨.hbm, 117, rfl⟩
abbrev main_v82 : Ref sig .tc := ⟨.hbm, 118, rfl⟩
abbrev main_v83 : Ref sig .tc := ⟨.hbm, 119, rfl⟩
abbrev main_c_19 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_20 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_21 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x96x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  shapeCasts_S64_S1x64 : S64.ShapeCasts S1x64
  inb_S2000x96_S2000x96_0_0 : ∀ a, (![0, 0] : Fin 2 → Nat) a + S2000x96.size a ≤ S2000x96.size a
  h_S2000x96 : 0 < S2000x96.numel
  bitsLt_bf16_f32 : FTy.bits .bf16 < FTy.bits .f32
  shapeCasts_S2000x96_S2000x96 : S2000x96.ShapeCasts S2000x96
  inb_S3x96x64_S1x96x64_0_0_0 : ∀ a, (![0, 0, 0] : Fin 3 → Nat) a + S1x96x64.size a ≤ S3x96x64.size a
  h_S1x96x64 : 0 < S1x96x64.numel
  shapeCasts_S1x96x64_S96x64 : S1x96x64.ShapeCasts S96x64
  inb_S3x96x64_S1x96x64_1_0_0 : ∀ a, (![1, 0, 0] : Fin 3 → Nat) a + S1x96x64.size a ≤ S3x96x64.size a
  inb_S3x96x64_S1x96x64_2_0_0 : ∀ a, (![2, 0, 0] : Fin 3 → Nat) a + S1x96x64.size a ≤ S3x96x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S2_S1x2 : S2.ShapeCasts S1x2
  shapeCasts_S2000x64_S2000x64 : S2000x64.ShapeCasts S2000x64
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  inb_S3x64x64_S1x64x64_1_0_0 : ∀ a, (![1, 0, 0] : Fin 3 → Nat) a + S1x64x64.size a ≤ S3x64x64.size a
  inb_S3x64x64_S1x64x64_2_0_0 : ∀ a, (![2, 0, 0] : Fin 3 → Nat) a + S1x64x64.size a ≤ S3x64x64.size a
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S2000x96_S96x64_S2000x64_1_0_0_1_n_n_wf : DotDims.WF S2000x96 S96x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  dot_S2000x64_S64x2_S2000x2_1_0_0_1_n_n_wf : DotDims.WF S2000x64 S64x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x96.size a ≤ S50000x96.size a
  hwx0_0 : ∀ i : grid0.Coords, EltTy.bits .f32 = 32 ∨ (Rect.block (s := S50000x96) S2000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x96.size a ≤ S50000x96.size a
  hwx0_1 : ∀ i : grid0.Coords, EltTy.bits .f32 = 32 ∨ (Rect.block (s := S50000x96) S2000x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x96.size a ≤ S50000x96.size a
  hwx0_2 : ∀ i : grid0.Coords, EltTy.bits .f32 = 32 ∨ (Rect.block (s := S50000x96) S2000x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x96x64.size a ≤ S3x96x64.size a
  hwx0_3 : ∀ i : grid0.Coords, EltTy.bits .f32 = 32 ∨ (Rect.block (s := S3x96x64) S3x96x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S50000x64.size a
  hwx0_5 : ∀ i : grid0.Coords, EltTy.bits .f32 = 32 ∨ (Rect.block (s := S50000x64) S2000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x64x64.size a ≤ S3x64x64.size a
  hwx1_3 : ∀ i : grid1.Coords, EltTy.bits .f32 = 32 ∨ (Rect.block (s := S3x64x64) S3x64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x2.size a ≤ S64x2.size a
  hwx1_5 : ∀ i : grid1.Coords, EltTy.bits .f32 = 32 ∨ (Rect.block (s := S64x2) S64x2.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2.size a ≤ S1x2.size a
  hwx1_6 : ∀ i : grid1.Coords, EltTy.bits .f32 = 32 ∨ (Rect.block (s := S1x2) S1x2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x2.size a ≤ S50000x2.size a
  hwx1_7 : ∀ i : grid1.Coords, EltTy.bits .f32 = 32 ∨ (Rect.block (s := S50000x2) S2000x2.size (cc1_transform_7 i) (hinb1_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S2000x96_S96x64_S2000x64_1_0_0_1_n_n : DotDims S2000x96 S96x64 S2000x64 where
  lhsContracting := [1]
  rhsContracting := [0]
  lhsNonContracting := [0]
  rhsNonContracting := [1]
  lhsBatch := []
  rhsBatch := []
  wf := dot_S2000x96_S96x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x2_S2000x2_1_0_0_1_n_n : DotDims S2000x64 S64x2 S2000x2 where
  lhsContracting := [1]
  rhsContracting := [0]
  lhsNonContracting := [0]
  rhsNonContracting := [1]
  lhsBatch := []
  rhsBatch := []
  wf := dot_S2000x64_S64x2_S2000x2_1_0_0_1_n_n_wf

abbrev win0_0 : Pipeline.Window sig grid0 :=
  Pipeline.Window.ofSpec (Memref.whole main_arg0) S2000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v49) S2000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v65) S2000x96.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x96x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v66) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v67) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v67) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v80) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v96) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S3x64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v97) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v98) S1x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v99) S2000x2.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S800000 : Shape := ⟨1, ![800000]⟩
abbrev S3x96x64 : Shape := ⟨3, ![3, 96, 64]⟩
abbrev S64 : Shape := ⟨1, ![64]⟩
abbrev S3x64x64 : Shape := ⟨3, ![3, 64, 64]⟩
abbrev S64x2 : Shape := ⟨2, ![64, 2]⟩
abbrev S2 : Shape := ⟨1, ![2]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S1x96x64 : Shape := ⟨3, ![1, 96, 64]⟩
abbrev S96x64 : Shape := ⟨2, ![96, 64]⟩
abbrev S50000x64 : Shape := ⟨2, ![50000, 64]⟩
abbrev S800000x96 : Shape := ⟨2, ![800000, 96]⟩
abbrev S1x64 : Shape := ⟨2, ![1, 64]⟩
abbrev S1x64x64 : Shape := ⟨3, ![1, 64, 64]⟩
abbrev S64x64 : Shape := ⟨2, ![64, 64]⟩
abbrev S800000x64 : Shape := ⟨2, ![800000, 64]⟩
abbrev S50000x2 : Shape := ⟨2, ![50000, 2]⟩
abbrev S1x2 : Shape := ⟨2, ![1, 2]⟩

abbrev nBuf : Space → Nat
  | .hbm => 172
  | .vmem => 0
  | .smem => 0
  | _ => 0

abbrev hbmTy0_0 (i : Nat) : BufTy := match i % 128 with
  | 0 => ⟨S50000x96, .f32⟩
  | 1 => ⟨S2x800000, .i32⟩
  | 2 => ⟨S800000, .f32⟩
  | 3 => ⟨S3x96x64, .f32⟩
  | 4 => ⟨S64, .f32⟩
  | 5 => ⟨S3x64x64, .f32⟩
  | 6 => ⟨S64, .f32⟩
  | 7 => ⟨S64x2, .f32⟩
  | 8 => ⟨S2, .f32⟩
  | 9 => ⟨S1x800000, .i32⟩
  | 10 => ⟨S800000, .i32⟩
  | 11 => ⟨S1x800000, .i32⟩
  | 12 => ⟨S800000, .i32⟩
  | 13 => ⟨S1x800000, .i32⟩
  | 14 => ⟨S800000, .i32⟩
  | 15 => ⟨S1x800000, .i32⟩
  | 16 => ⟨S800000, .i32⟩
  | 17 => ⟨S800000, .i1⟩
  | 18 => ⟨S_, .f32⟩
  | 19 => ⟨S_, .f32⟩
  | 20 => ⟨S800000, .f32⟩
  | 21 => ⟨S800000, .f32⟩
  | 22 => ⟨S_, .f32⟩
  | 23 => ⟨S50000, .f32⟩
  | 24 => ⟨S800000x1, .i32⟩
  | 25 => ⟨S50000, .f32⟩
  | 26 => ⟨S_, .f32⟩
  | 27 => ⟨S50000, .f32⟩
  | 28 => ⟨S50000, .i1⟩
  | 29 => ⟨S_, .f32⟩
  | 30 => ⟨S50000, .f32⟩
  | 31 => ⟨S50000, .i1⟩
  | 32 => ⟨S_, .f32⟩
  | 33 => ⟨S_, .f32⟩
  | 34 => ⟨S50000, .f32⟩
  | 35 => ⟨S50000, .f32⟩
  | 36 => ⟨S50000, .f32⟩
  | 37 => ⟨S_, .f32⟩
  | 38 => ⟨S_, .f32⟩
  | 39 => ⟨S50000, .f32⟩
  | 40 => ⟨S50000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000, .f32⟩
  | 51 => ⟨S800000, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000, .f32⟩
  | 61 => ⟨S800000, .f32⟩
  | 62 => ⟨S1x96x64, .f32⟩
  | 63 => ⟨S96x64, .f32⟩
  | 64 => ⟨S50000x64, .f32⟩
  | 65 => ⟨S800000x1, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x96, .f32⟩
  | 75 => ⟨S800000x96, .f32⟩
  | 76 => ⟨S800000x96, .f32⟩
  | 77 => ⟨S_, .f32⟩
  | 78 => ⟨S50000x96, .f32⟩
  | 79 => ⟨S800000x1, .i32⟩
  | 80 => ⟨S50000x96, .f32⟩
  | 81 => ⟨S1x96x64, .f32⟩
  | 82 => ⟨S96x64, .f32⟩
  | 83 => ⟨S50000x64, .f32⟩
  | 84 => ⟨S50000x64, .f32⟩
  | 85 => ⟨S800000x1, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x96, .f32⟩
  | 95 => ⟨S800000x96, .f32⟩
  | 96 => ⟨S800000x96, .f32⟩
  | 97 => ⟨S_, .f32⟩
  | 98 => ⟨S50000x96, .f32⟩
  | 99 => ⟨S800000x1, .i32⟩
  | 100 => ⟨S50000x96, .f32⟩
  | 101 => ⟨S_, .f32⟩
  | 102 => ⟨S50000x96, .f32⟩
  | 103 => ⟨S50000x96, .f32⟩
  | 104 => ⟨S50000x96, .f32⟩
  | 105 => ⟨S1x96x64, .f32⟩
  | 106 => ⟨S96x64, .f32⟩
  | 107 => ⟨S50000x64, .f32⟩
  | 108 => ⟨S50000x64, .f32⟩
  | 109 => ⟨S1x64, .f32⟩
  | 110 => ⟨S50000x64, .f32⟩
  | 111 => ⟨S50000x64, .f32⟩
  | 112 => ⟨S_, .f32⟩
  | 113 => ⟨S50000x64, .f32⟩
  | 114 => ⟨S50000x64, .f32⟩
  | 115 => ⟨S1x64x64, .f32⟩
  | 116 => ⟨S64x64, .f32⟩
  | 117 => ⟨S50000x64, .f32⟩
  | 118 => ⟨S800000x1, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000x64, .f32⟩
  | _ => ⟨S50000x96, .f32⟩

abbrev hbmTy0_1 (i : Nat) : BufTy := match i % 128 with
  | 0 => ⟨S800000x64, .f32⟩
  | 1 => ⟨S800000x64, .f32⟩
  | 2 => ⟨S_, .f32⟩
  | 3 => ⟨S50000x64, .f32⟩
  | 4 => ⟨S800000x1, .i32⟩
  | 5 => ⟨S50000x64, .f32⟩
  | 6 => ⟨S1x64x64, .f32⟩
  | 7 => ⟨S64x64, .f32⟩
  | 8 => ⟨S50000x64, .f32⟩
  | 9 => ⟨S50000x64, .f32⟩
  | 10 => ⟨S800000x1, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x64, .f32⟩
  | 20 => ⟨S800000x64, .f32⟩
  | 21 => ⟨S800000x64, .f32⟩
  | 22 => ⟨S_, .f32⟩
  | 23 => ⟨S50000x64, .f32⟩
  | 24 => ⟨S800000x1, .i32⟩
  | 25 => ⟨S50000x64, .f32⟩
  | 26 => ⟨S_, .f32⟩
  | 27 => ⟨S50000x64, .f32⟩
  | 28 => ⟨S50000x64, .f32⟩
  | 29 => ⟨S50000x64, .f32⟩
  | 30 => ⟨S1x64x64, .f32⟩
  | 31 => ⟨S64x64, .f32⟩
  | 32 => ⟨S50000x64, .f32⟩
  | 33 => ⟨S50000x64, .f32⟩
  | 34 => ⟨S1x64, .f32⟩
  | 35 => ⟨S50000x64, .f32⟩
  | 36 => ⟨S50000x64, .f32⟩
  | 37 => ⟨S_, .f32⟩
  | 38 => ⟨S50000x64, .f32⟩
  | 39 => ⟨S50000x64, .f32⟩
  | 40 => ⟨S50000x2, .f32⟩
  | 41 => ⟨S1x2, .f32⟩
  | 42 => ⟨S50000x2, .f32⟩
  | 43 => ⟨S50000x2, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_call1_v0 : Ref sig .tc := ⟨.hbm, 33, rfl⟩
abbrev main_call1_v1 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_call2_v0 : Ref sig .tc := ⟨.hbm, 38, rfl⟩
abbrev main_call2_v1 : Ref sig .tc := ⟨.hbm, 39, rfl⟩
abbrev main_v19 : Ref sig .tc := ⟨.hbm, 40, rfl⟩
abbrev main_c : Ref sig .tc := ⟨.hbm, 41, rfl⟩
abbrev main_v20 : Ref sig .tc := ⟨.hbm, 42, rfl⟩
abbrev main_v21 : Ref sig .tc := ⟨.hbm, 43, rfl⟩
abbrev main_c_5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_6 : Ref sig .tc := ⟨.hbm, 52, rfl⟩
abbrev main_v29 : Ref sig .tc := ⟨.hbm, 53, rfl⟩
abbrev main_v30 : Ref sig .tc := ⟨.hbm, 54, rfl⟩
abbrev main_c_7 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_8 : Ref sig .tc := ⟨.hbm, 66, rfl⟩
abbrev main_v41 : Ref sig .tc := ⟨.hbm, 67, rfl⟩
abbrev main_v42 : Ref sig .tc := ⟨.hbm, 68, rfl⟩
abbrev main_c_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_c_12 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_14 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_call3_cst : Ref sig .tc := ⟨.hbm, 112, rfl⟩
abbrev main_call3_v0 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_c_15 : Ref sig .tc := ⟨.hbm, 119, rfl⟩
abbrev main_v85 : Ref sig .tc := ⟨.hbm, 120, rfl⟩
abbrev main_v86 : Ref sig .tc := ⟨.hbm, 121, rfl⟩
abbrev main_c_16 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_17 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_c_18 : Ref sig .tc := ⟨.hbm, 139, rfl⟩
abbrev main_v102 : Ref sig .tc := ⟨.hbm, 140, rfl⟩
abbrev main_v103 : Ref sig .tc := ⟨.hbm, 141, rfl⟩
abbrev main_c_19 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_20 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_cst_21 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_call4_cst : Ref sig .tc := ⟨.hbm, 165, rfl⟩
abbrev main_call4_v0 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S3x96x64_S1x96x64_0_0_0 : S3x96x64.Slices ![0, 0, 0] S1x96x64
  shapeCasts_S1x96x64_S96x64 : S1x96x64.ShapeCasts S96x64
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  slices_S3x96x64_S1x96x64_1_0_0 : S3x96x64.Slices ![1, 0, 0] S1x96x64
  slices_S3x96x64_S1x96x64_2_0_0 : S3x96x64.Slices ![2, 0, 0] S1x96x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  slices_S3x64x64_S1x64x64_0_0_0 : S3x64x64.Slices ![0, 0, 0] S1x64x64
  shapeCasts_S1x64x64_S64x64 : S1x64x64.ShapeCasts S64x64
  bcast_S800000x1_S800000x64_0_1 : S800000x1.BroadcastsInDim S800000x64 (![0, 1] : Fin 2 → Fin S800000x64.rank)
  slices_S3x64x64_S1x64x64_1_0_0 : S3x64x64.Slices ![1, 0, 0] S1x64x64
  slices_S3x64x64_S1x64x64_2_0_0 : S3x64x64.Slices ![2, 0, 0] S1x64x64
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x96_S96x64_S50000x64_1_0_0_1_n_n_wf : DotDims.WF S50000x96 S96x64 S50000x64 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x2_S50000x2_1_0_0_1_n_n_wf : DotDims.WF S50000x64 S64x2 S50000x2 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x96_S96x64_S50000x64_1_0_0_1_n_n : DotDims S50000x96 S96x64 S50000x64 where
  lhsContracting := [1]
  rhsContracting := [0]
  lhsNonContracting := [0]
  rhsNonContracting := [1]
  lhsBatch := []
  rhsBatch := []
  wf := dot_S50000x96_S96x64_S50000x64_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf

class Facts : Prop extends Facts₀ where

variable [Facts]
-- ==== Proof.KernelRun.lean ====
/-
  The idealized kernel program's run, with every buffer's final contents.

  The program is a chain: host operations, the first kernel region, host operations, the second region. Its
  contents at each boundary are a fold of the launch memory through the chain (the generated frame names them
  W0 … W10). The frame only says that the argument arrays end as launched; here the same launch is stated
  with the whole last boundary: on every core, every buffer that lives across regions ends at W10. The result
  array is one of those buffers, so its final contents can be read off the fold.
-/
import proofs.«114510_j14980845928730_1_alg».proof.Proof.Gen.KernelIdeal.Frame

set_option maxRecDepth 16384

noncomputable section

namespace Cert.KernelIdeal.RunAll

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and on every core each buffer that
    outlives the regions ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- The result array is such a buffer: it ends at the last boundary's contents of the second region's output. -/
theorem run_result : θ_run defs (onTc (τ := τ) (main (F := F))) ⟨m, fun _ => 0, ρ⟩ (fun r => ∀ c : Dev nD,
      r.2.mem ((c.tc : Thread nD τ).loc main_v99) = W10 m ρ c (Proc.devRef .tc main_v99)) :=
  (θ_run defs _ _).mono (fun r h c => h c _ (mem_uc main_v99 (by decide))) (run_all m ρ)

/-- The same run with the post the equivalence claim asks of the kernel side: the result array at the last
    boundary's contents, and each argument array as launched (no host operation and no region writes one). -/
theorem run_value : θ_run defs (onTc (τ := τ) (main (F := F))) ⟨m, fun _ => 0, ρ⟩ (fun r => ∀ c : Dev nD,
      r.2.mem ((c.tc : Thread nD τ).loc main_v99) = W10 m ρ c (Proc.devRef .tc main_v99)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
      ⟨h c _ (mem_uc main_v99 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩) (run_all m ρ)

end Cert.KernelIdeal.RunAll

end
-- ==== Proof.LibRowReshape.lean ====
/-
  Two ways of laying a vector `[b]` as the one-row matrix `[1, b]` give the same array: a reshape (a shape
  cast, which keeps the row-major position) and a `broadcast_in_dim` sending the vector's axis to axis 1.
  Both read, at `(u, q)`, the vector at `q`. A kernel's host side reshapes a bias before the call where
  plain jnp broadcasts it; this is the bridge between the two spellings. (`b ≠ 1`, as for the row forms of
  `broadcast_in_dim`.)
-/
import Idealize.ShloMosaic.Lib.Pipeline.Value
import Idealize.ShloMosaic.Lib.ValueIdx
import Idealize.ShloMosaic.Lib.ValueLayout

namespace Cert.Lib.RowReshape

open Idealize.ShloMosaic Idealize.ShloMosaic.ValueIdx

variable {α : Type}

/-- The reshape of a vector `[b]` to `[1, b]` is the vector laid as a row by `broadcast_in_dim` (dims `[1]`). -/
theorem reshape_eq_inDim {b : ℕ} (hb : b ≠ 1) (hc : (⟨1, ![b]⟩ : Shape).ShapeCasts ⟨2, ![1, b]⟩)
    (hd : (⟨1, ![b]⟩ : Shape).BroadcastsInDim ⟨2, ![1, b]⟩ ![1]) (v : (⟨1, ![b]⟩ : Shape).Idx → α) :
    shapeCast ⟨2, ![1, b]⟩ v hc = broadcastInDim ⟨2, ![1, b]⟩ ![1] hd v := by
  funext i
  obtain ⟨u, q, rfl⟩ : ∃ (u : Fin 1) (q : Fin b), i = ix2 u q := ⟨i 0, i 1, eq_ix2 i⟩
  rw [shapeCast_a_1a_apply v hc u q]
  exact (broadcastInDim_apply _ hd v (ix2 u q) (ix1 q) (fun a => match a with
    | ⟨0, _⟩ => by show q.val = if b = 1 then 0 else q.val; rw [if_neg hb])).symm

end Cert.Lib.RowReshape
-- ==== Proof.HostStages.lean ====
/-
  The kernel program's host operations are the reference's own operations: read through the fold of boundary
  contents, each array a region is entered with is the reference's stage of the same mathematical name —
  the normalised edge weights, the propagated features Tx1 = L̂·x and Tx2 = 2·L̂·Tx1 − x, the source and
  target node of every edge. Nothing is computed here: both programs apply the same gather, multiply and
  scatter-add to the same arguments, and the two terms are compared as terms.
-/
import proofs.«114510_j14980845928730_1_alg».proof.Proof.Gen.KernelIdeal.Frame
import proofs.«114510_j14980845928730_1_alg».proof.Proof.Gen.ReferenceIdeal.Read
import proofs.«114510_j14980845928730_1_alg».proof.Proof.LibRowReshape

set_option maxRecDepth 16384

noncomputable section

namespace Cert.KernelIdeal.HostStages

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The three outlined selections (`where`), as plain operations at their buffers. -/
theorem whereA_eq : (hostOps0_1 : List (HloOp τ sig (Elt Ideal))) =
    [ StableHlo.unary main_cst main_call0_v0 (id : (⟨S_, .f32⟩ : BufTy).Contents (Elt Ideal) → (⟨S_, .f32⟩ : BufTy).Contents (Elt Ideal)),
      StableHlo.unary main_call0_v0 main_call0_v1 (broadcastInDim S800000 ![] bcast_S_S800000 : (⟨S_, .f32⟩ : BufTy).Contents (Elt Ideal) → (⟨S800000, .f32⟩ : BufTy).Contents (Elt Ideal)),
      StableHlo.ternary main_v8 main_call0_v1 main_arg2 main_v9 (select : (⟨S800000, .i1⟩ : BufTy).Contents (Elt Ideal) → (⟨S800000, .f32⟩ : BufTy).Contents (Elt Ideal) → (⟨S800000, .f32⟩ : BufTy).Contents (Elt Ideal) → (⟨S800000, .f32⟩ : BufTy).Contents (Elt Ideal)) ] := rfl
theorem whereB_eq : (hostOps0_3 : List (HloOp τ sig (Elt Ideal))) =
    [ StableHlo.unary main_cst_3 main_call1_v0 (id : (⟨S_, .f32⟩ : BufTy).Contents (Elt Ideal) → (⟨S_, .f32⟩ : BufTy).Contents (Elt Ideal)),
      StableHlo.unary main_call1_v0 main_call1_v1 (broadcastInDim S50000 ![] bcast_S_S50000 : (⟨S_, .f32⟩ : BufTy).Contents (Elt Ideal) → (⟨S50000, .f32⟩ : BufTy).Contents (Elt Ideal)),
      StableHlo.ternary main_v16 main_v12 main_call1_v1 main_v17 (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal)) ] := rfl
theorem whereC_eq : (hostOps0_5 : List (HloOp τ sig (Elt Ideal))) =
    [ StableHlo.unary main_cst_4 main_call2_v0 (id : (⟨S_, .f32⟩ : BufTy).Contents (Elt Ideal) → (⟨S_, .f32⟩ : BufTy).Contents (Elt Ideal)),
      StableHlo.unary main_call2_v0 main_call2_v1 (broadcastInDim S50000 ![] bcast_S_S50000 : (⟨S_, .f32⟩ : BufTy).Contents (Elt Ideal) → (⟨S50000, .f32⟩ : BufTy).Contents (Elt Ideal)),
      StableHlo.ternary main_v14 main_v18 main_call2_v1 main_v19 (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal)) ] := rfl

/-! ## The contents the first region is entered with, and the edge data that the second stretch reads again -/

set_option maxHeartbeats 1000000 in
/-- The node features are the first argument, untouched. -/
theorem entry_x (c : Dev nD) :
    W7 m ρ c (Proc.devRef .tc main_arg0) = (m ((c : Thread nD τ).loc main_arg0)) := by
  show StableHlo.after hostOps0_6 (StableHlo.after hostOps0_5 (StableHlo.after hostOps0_4 (StableHlo.after hostOps0_3
    (StableHlo.after hostOps0_2 (StableHlo.after hostOps0_1 (StableHlo.after hostOps0 (W0 m ρ c))))))) (Proc.devRef .tc main_arg0) = _
  simp only [hostOps0, whereA_eq, hostOps0_2, whereB_eq, hostOps0_4, whereC_eq, hostOps0_6]
  after_results_simp <;> rfl

set_option maxHeartbeats 1000000 in
/-- Tx1: the features propagated once over the normalised graph. -/
theorem entry_tx1 (c : Dev nD) :
    W7 m ρ c (Proc.devRef .tc main_v49) = Cert.ReferenceIdeal.Read.val_main_v52 (F := Ideal) (m ((c : Thread nD τ).loc main_arg0)) (m ((c : Thread nD τ).loc main_arg1)) (m ((c : Thread nD τ).loc main_arg2)) := by
  show StableHlo.after hostOps0_6 (StableHlo.after hostOps0_5 (StableHlo.after hostOps0_4 (StableHlo.after hostOps0_3
    (StableHlo.after hostOps0_2 (StableHlo.after hostOps0_1 (StableHlo.after hostOps0 (W0 m ρ c))))))) (Proc.devRef .tc main_v49) = _
  simp only [hostOps0, whereA_eq, hostOps0_2, whereB_eq, hostOps0_4, whereC_eq, hostOps0_6]
  after_results_simp <;> rfl

set_option maxHeartbeats 1000000 in
/-- Tx2 = 2 · (Tx1 propagated) − x. -/
theorem entry_tx2 (c : Dev nD) :
    W7 m ρ c (Proc.devRef .tc main_v65) = Cert.ReferenceIdeal.Read.val_main_v72 (F := Ideal) (m ((c : Thread nD τ).loc main_arg0)) (m ((c : Thread nD τ).loc main_arg1)) (m ((c : Thread nD τ).loc main_arg2)) := by
  show StableHlo.after hostOps0_6 (StableHlo.after hostOps0_5 (StableHlo.after hostOps0_4 (StableHlo.after hostOps0_3
    (StableHlo.after hostOps0_2 (StableHlo.after hostOps0_1 (StableHlo.after hostOps0 (W0 m ρ c))))))) (Proc.devRef .tc main_v65) = _
  simp only [hostOps0, whereA_eq, hostOps0_2, whereB_eq, hostOps0_4, whereC_eq, hostOps0_6]
  after_results_simp <;> rfl

set_option maxHeartbeats 1000000 in
/-- The first layer's stacked weights are the fourth argument, untouched. -/
theorem entry_w1 (c : Dev nD) :
    W7 m ρ c (Proc.devRef .tc main_arg3) = (m ((c : Thread nD τ).loc main_arg3)) := by
  show StableHlo.after hostOps0_6 (StableHlo.after hostOps0_5 (StableHlo.after hostOps0_4 (StableHlo.after hostOps0_3
    (StableHlo.after hostOps0_2 (StableHlo.after hostOps0_1 (StableHlo.after hostOps0 (W0 m ρ c))))))) (Proc.devRef .tc main_arg3) = _
  simp only [hostOps0, whereA_eq, hostOps0_2, whereB_eq, hostOps0_4, whereC_eq, hostOps0_6]
  after_results_simp <;> rfl

set_option maxHeartbeats 1000000 in
/-- The normalised edge weights −d(src)^(-1/2) · w · d(dst)^(-1/2), self-loops removed. -/
theorem edge_weight (c : Dev nD) :
    W7 m ρ c (Proc.devRef .tc main_v36) = Cert.ReferenceIdeal.Read.val_main_v36 (F := Ideal) (m ((c : Thread nD τ).loc main_arg1)) (m ((c : Thread nD τ).loc main_arg2)) := by
  show StableHlo.after hostOps0_6 (StableHlo.after hostOps0_5 (StableHlo.after hostOps0_4 (StableHlo.after hostOps0_3
    (StableHlo.after hostOps0_2 (StableHlo.after hostOps0_1 (StableHlo.after hostOps0 (W0 m ρ c))))))) (Proc.devRef .tc main_v36) = _
  simp only [hostOps0, whereA_eq, hostOps0_2, whereB_eq, hostOps0_4, whereC_eq, hostOps0_6]
  after_results_simp <;> rfl

set_option maxHeartbeats 1000000 in
/-- The source node of every edge. -/
theorem edge_src (c : Dev nD) :
    W7 m ρ c (Proc.devRef .tc main_v1) = Cert.ReferenceIdeal.Read.val_main_v1 (F := Ideal) (m ((c : Thread nD τ).loc main_arg1)) := by
  show StableHlo.after hostOps0_6 (StableHlo.after hostOps0_5 (StableHlo.after hostOps0_4 (StableHlo.after hostOps0_3
    (StableHlo.after hostOps0_2 (StableHlo.after hostOps0_1 (StableHlo.after hostOps0 (W0 m ρ c))))))) (Proc.devRef .tc main_v1) = _
  simp only [hostOps0, whereA_eq, hostOps0_2, whereB_eq, hostOps0_4, whereC_eq, hostOps0_6]
  after_results_simp <;> rfl

set_option maxHeartbeats 1000000 in
/-- The target node of every edge. -/
theorem edge_dst (c : Dev nD) :
    W7 m ρ c (Proc.devRef .tc main_v3) = Cert.ReferenceIdeal.Read.val_main_v3 (F := Ideal) (m ((c : Thread nD τ).loc main_arg1)) := by
  show StableHlo.after hostOps0_6 (StableHlo.after hostOps0_5 (StableHlo.after hostOps0_4 (StableHlo.after hostOps0_3
    (StableHlo.after hostOps0_2 (StableHlo.after hostOps0_1 (StableHlo.after hostOps0 (W0 m ρ c))))))) (Proc.devRef .tc main_v3) = _
  simp only [hostOps0, whereA_eq, hostOps0_2, whereB_eq, hostOps0_4, whereC_eq, hostOps0_6]
  after_results_simp <;> rfl

set_option maxHeartbeats 1000000 in
/-- The second layer's stacked weights are still the sixth argument. -/
theorem keep_w2 (c : Dev nD) :
    W7 m ρ c (Proc.devRef .tc main_arg5) = (m ((c : Thread nD τ).loc main_arg5)) := by
  show StableHlo.after hostOps0_6 (StableHlo.after hostOps0_5 (StableHlo.after hostOps0_4 (StableHlo.after hostOps0_3
    (StableHlo.after hostOps0_2 (StableHlo.after hostOps0_1 (StableHlo.after hostOps0 (W0 m ρ c))))))) (Proc.devRef .tc main_arg5) = _
  simp only [hostOps0, whereA_eq, hostOps0_2, whereB_eq, hostOps0_4, whereC_eq, hostOps0_6]
  after_results_simp <;> rfl

set_option maxHeartbeats 1000000 in
/-- The second layer's bias is still the seventh argument. -/
theorem keep_b2 (c : Dev nD) :
    W7 m ρ c (Proc.devRef .tc main_arg6) = (m ((c : Thread nD τ).loc main_arg6)) := by
  show StableHlo.after hostOps0_6 (StableHlo.after hostOps0_5 (StableHlo.after hostOps0_4 (StableHlo.after hostOps0_3
    (StableHlo.after hostOps0_2 (StableHlo.after hostOps0_1 (StableHlo.after hostOps0 (W0 m ρ c))))))) (Proc.devRef .tc main_arg6) = _
  simp only [hostOps0, whereA_eq, hostOps0_2, whereB_eq, hostOps0_4, whereC_eq, hostOps0_6]
  after_results_simp <;> rfl

set_option maxHeartbeats 1000000 in
/-- The classifier matrix is still the eighth argument. -/
theorem keep_wfc (c : Dev nD) :
    W7 m ρ c (Proc.devRef .tc main_arg7) = (m ((c : Thread nD τ).loc main_arg7)) := by
  show StableHlo.after hostOps0_6 (StableHlo.after hostOps0_5 (StableHlo.after hostOps0_4 (StableHlo.after hostOps0_3
    (StableHlo.after hostOps0_2 (StableHlo.after hostOps0_1 (StableHlo.after hostOps0 (W0 m ρ c))))))) (Proc.devRef .tc main_arg7) = _
  simp only [hostOps0, whereA_eq, hostOps0_2, whereB_eq, hostOps0_4, whereC_eq, hostOps0_6]
  after_results_simp <;> rfl

set_option maxHeartbeats 1000000 in
/-- The classifier bias is still the ninth argument. -/
theorem keep_bfc (c : Dev nD) :
    W7 m ρ c (Proc.devRef .tc main_arg8) = (m ((c : Thread nD τ).loc main_arg8)) := by
  show StableHlo.after hostOps0_6 (StableHlo.after hostOps0_5 (StableHlo.after hostOps0_4 (StableHlo.after hostOps0_3
    (StableHlo.after hostOps0_2 (StableHlo.after hostOps0_1 (StableHlo.after hostOps0 (W0 m ρ c))))))) (Proc.devRef .tc main_arg8) = _
  simp only [hostOps0, whereA_eq, hostOps0_2, whereB_eq, hostOps0_4, whereC_eq, hostOps0_6]
  after_results_simp <;> rfl

set_option maxHeartbeats 1000000 in
/-- The first layer's bias reshaped to a row is the reference's bias laid as a row. -/
theorem entry_b1 (c : Dev nD) :
    W7 m ρ c (Proc.devRef .tc main_v66) = Cert.ReferenceIdeal.Read.val_main_v77 (F := Ideal) (m ((c : Thread nD τ).loc main_arg4)) := by
  show StableHlo.after hostOps0_6 (StableHlo.after hostOps0_5 (StableHlo.after hostOps0_4 (StableHlo.after hostOps0_3
    (StableHlo.after hostOps0_2 (StableHlo.after hostOps0_1 (StableHlo.after hostOps0 (W0 m ρ c))))))) (Proc.devRef .tc main_v66) = _
  simp only [hostOps0, whereA_eq, hostOps0_2, whereB_eq, hostOps0_4, whereC_eq, hostOps0_6]
  after_results_simp
  exact Cert.Lib.RowReshape.reshape_eq_inDim (b := 64) (by decide) _ _ _

end Cert.KernelIdeal.HostStages

end
-- ==== Proof.HostStages2.lean ====
/-
  The second stretch of host operations: from the first region's exit to the second region's entry. The
  first region writes only its output array h; the edge data and the remaining parameters are as before it.
  Given that h is the reference's hidden layer, the arrays the second region is entered with are the
  reference's stages again: h itself, Tx1 = L̂·h, Tx2 = 2·L̂·Tx1 − h, the parameters, and the two biases
  laid as rows.
-/
import proofs.«114510_j14980845928730_1_alg».proof.Proof.HostStages

set_option maxRecDepth 16384

noncomputable section

namespace Cert.KernelIdeal.HostStages

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## After the first region: everything but its arrays is as it was entered -/

theorem after_weight (c : Dev nD) : W8 m ρ c (Proc.devRef .tc main_v36) = Cert.ReferenceIdeal.Read.val_main_v36 (F := Ideal) (m ((c : Thread nD τ).loc main_arg1)) (m ((c : Thread nD τ).loc main_arg2)) :=
  (W8_of_ne m ρ c main_v36 (by decide)).trans (edge_weight m ρ c)
theorem after_src (c : Dev nD) : W8 m ρ c (Proc.devRef .tc main_v1) = Cert.ReferenceIdeal.Read.val_main_v1 (F := Ideal) (m ((c : Thread nD τ).loc main_arg1)) :=
  (W8_of_ne m ρ c main_v1 (by decide)).trans (edge_src m ρ c)
theorem after_dst (c : Dev nD) : W8 m ρ c (Proc.devRef .tc main_v3) = Cert.ReferenceIdeal.Read.val_main_v3 (F := Ideal) (m ((c : Thread nD τ).loc main_arg1)) :=
  (W8_of_ne m ρ c main_v3 (by decide)).trans (edge_dst m ρ c)
theorem after_w2 (c : Dev nD) : W8 m ρ c (Proc.devRef .tc main_arg5) = (m ((c : Thread nD τ).loc main_arg5)) :=
  (W8_of_ne m ρ c main_arg5 (by decide)).trans (keep_w2 m ρ c)
theorem after_b2 (c : Dev nD) : W8 m ρ c (Proc.devRef .tc main_arg6) = (m ((c : Thread nD τ).loc main_arg6)) :=
  (W8_of_ne m ρ c main_arg6 (by decide)).trans (keep_b2 m ρ c)
theorem after_wfc (c : Dev nD) : W8 m ρ c (Proc.devRef .tc main_arg7) = (m ((c : Thread nD τ).loc main_arg7)) :=
  (W8_of_ne m ρ c main_arg7 (by decide)).trans (keep_wfc m ρ c)
theorem after_bfc (c : Dev nD) : W8 m ρ c (Proc.devRef .tc main_arg8) = (m ((c : Thread nD τ).loc main_arg8)) :=
  (W8_of_ne m ρ c main_arg8 (by decide)).trans (keep_bfc m ρ c)

/-! ## The contents the second region is entered with -/

set_option maxHeartbeats 1000000 in
/-- The hidden layer is not written by the second stretch. -/
theorem entry2_h (c : Dev nD)
    (hH : W8 m ρ c (Proc.devRef .tc main_v67) = Cert.ReferenceIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4))) :
    W9 m ρ c (Proc.devRef .tc main_v67) = Cert.ReferenceIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W8 m ρ c) (Proc.devRef .tc main_v67) = _
  simp only [hostOps1]
  after_results_simp
  exact hH

set_option maxHeartbeats 1000000 in
/-- Tx1 of the second layer: the hidden layer propagated once. -/
theorem entry2_tx1 (c : Dev nD)
    (hH : W8 m ρ c (Proc.devRef .tc main_v67) = Cert.ReferenceIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4))) :
    W9 m ρ c (Proc.devRef .tc main_v80) = Cert.ReferenceIdeal.Read.val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W8 m ρ c) (Proc.devRef .tc main_v80) = _
  simp only [hostOps1]
  after_results_simp
  rw [hH, after_weight m ρ c, after_src m ρ c, after_dst m ρ c]
  rfl

set_option maxHeartbeats 1000000 in
/-- Tx2 of the second layer: 2 · (Tx1 propagated) − h. -/
theorem entry2_tx2 (c : Dev nD)
    (hH : W8 m ρ c (Proc.devRef .tc main_v67) = Cert.ReferenceIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4))) :
    W9 m ρ c (Proc.devRef .tc main_v96) = Cert.ReferenceIdeal.Read.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W8 m ρ c) (Proc.devRef .tc main_v96) = _
  simp only [hostOps1]
  after_results_simp
  rw [hH, after_weight m ρ c, after_src m ρ c, after_dst m ρ c]
  rfl

set_option maxHeartbeats 1000000 in
theorem entry2_w2 (c : Dev nD) : W9 m ρ c (Proc.devRef .tc main_arg5) = (m ((c : Thread nD τ).loc main_arg5)) := by
  show StableHlo.after hostOps1 (W8 m ρ c) (Proc.devRef .tc main_arg5) = _
  simp only [hostOps1]
  after_results_simp
  exact after_w2 m ρ c

set_option maxHeartbeats 1000000 in
theorem entry2_wfc (c : Dev nD) : W9 m ρ c (Proc.devRef .tc main_arg7) = (m ((c : Thread nD τ).loc main_arg7)) := by
  show StableHlo.after hostOps1 (W8 m ρ c) (Proc.devRef .tc main_arg7) = _
  simp only [hostOps1]
  after_results_simp
  exact after_wfc m ρ c

set_option maxHeartbeats 1000000 in
/-- The second layer's bias reshaped to a row is the reference's bias laid as a row. -/
theorem entry2_b2 (c : Dev nD) : W9 m ρ c (Proc.devRef .tc main_v97) = Cert.ReferenceIdeal.Read.val_main_v121 (F := Ideal) (m ((c : Thread nD τ).loc main_arg6)) := by
  show StableHlo.after hostOps1 (W8 m ρ c) (Proc.devRef .tc main_v97) = _
  simp only [hostOps1]
  after_results_simp
  rw [after_b2 m ρ c]
  exact Cert.Lib.RowReshape.reshape_eq_inDim (b := 64) (by decide) _ _ _

set_option maxHeartbeats 1000000 in
/-- The classifier bias reshaped to a row is the reference's bias laid as a row. -/
theorem entry2_bfc (c : Dev nD) : W9 m ρ c (Proc.devRef .tc main_v98) = Cert.ReferenceIdeal.Read.val_main_v126 (F := Ideal) (m ((c : Thread nD τ).loc main_arg8)) := by
  show StableHlo.after hostOps1 (W8 m ρ c) (Proc.devRef .tc main_v98) = _
  simp only [hostOps1]
  after_results_simp
  rw [after_bfc m ρ c]
  exact Cert.Lib.RowReshape.reshape_eq_inDim (b := 2) (by decide) _ _ _

end Cert.KernelIdeal.HostStages

end
-- ==== Proof.ChebSpec.lean ====
/-
  The arithmetic of one output entry of the network, at the ideal values (extended reals).

  A Chebyshev convolution with three terms takes, for one node, the node's rows r0, r1, r2 of the three
  propagated feature matrices Tx0, Tx1, Tx2 and returns, for output channel q,

      max (((r0 · W0[:, q] + r1 · W1[:, q]) + r2 · W2[:, q]) + b q) 0,

  the three products summed in this order, then the bias, then the rectifier. The last stage multiplies the
  rectified row by the classifier matrix and adds its bias. Nothing here depends on any other node's row:
  this is why cutting the nodes into blocks of rows changes nothing.
-/
import Idealize.ShloMosaic.PureOps.Ideal
import Idealize.ShloMosaic.Lib.ValueIdx

noncomputable section

namespace Cert.ChebSpec

open Idealize.ShloMosaic Idealize.ShloMosaic.ValueIdx

/-- Output channel `q` of a three-term layer for one node, from the node's three rows, the three weight matrices
    and the bias. -/
def rowOut {d e : ℕ} (r0 r1 r2 : Fin d → EReal) (w0 w1 w2 : Fin d → Fin e → EReal) (b : Fin e → EReal)
    (q : Fin e) : EReal :=
  max ((((∑ k : Fin d, r0 k * w0 k q) + ∑ k : Fin d, r1 k * w1 k q) + ∑ k : Fin d, r2 k * w2 k q) + b q) 0

/-- Logit `r` for one node: the rectified layer row times the classifier matrix, plus the classifier bias. -/
def rowLogit {d e o : ℕ} (r0 r1 r2 : Fin d → EReal) (w0 w1 w2 : Fin d → Fin e → EReal) (b : Fin e → EReal)
    (wfc : Fin e → Fin o → EReal) (bfc : Fin o → EReal) (r : Fin o) : EReal :=
  (∑ j : Fin e, rowOut r0 r1 r2 w0 w1 w2 b j * wfc j r) + bfc r

/-- The layer as a whole array: entry (P, q) is `rowOut` of row P of each of the three feature matrices, of the
    three slabs of the stacked weights and of the bias laid as a row. -/
def layerArr {n d e : ℕ} (X0 X1 X2 : (⟨2, ![n, d]⟩ : Shape).Idx → EReal) (W : (⟨3, ![3, d, e]⟩ : Shape).Idx → EReal)
    (B : (⟨2, ![1, e]⟩ : Shape).Idx → EReal) : (⟨2, ![n, e]⟩ : Shape).Idx → EReal := fun i =>
  rowOut (fun k => X0 (ix2 (⟨(i 0).val, (i 0).isLt⟩ : Fin n) k)) (fun k => X1 (ix2 (⟨(i 0).val, (i 0).isLt⟩ : Fin n) k))
    (fun k => X2 (ix2 (⟨(i 0).val, (i 0).isLt⟩ : Fin n) k))
    (fun k q => W (ix3 (0 : Fin 3) k q)) (fun k q => W (ix3 (1 : Fin 3) k q)) (fun k q => W (ix3 (2 : Fin 3) k q))
    (fun q => B (ix2 (0 : Fin 1) q)) (⟨(i 1).val, (i 1).isLt⟩ : Fin e)

theorem layerArr_apply {n d e : ℕ} (X0 X1 X2 : (⟨2, ![n, d]⟩ : Shape).Idx → EReal)
    (W : (⟨3, ![3, d, e]⟩ : Shape).Idx → EReal) (B : (⟨2, ![1, e]⟩ : Shape).Idx → EReal) (P : Fin n) (q : Fin e) :
    layerArr X0 X1 X2 W B (ix2 P q)
      = rowOut (fun k => X0 (ix2 P k)) (fun k => X1 (ix2 P k)) (fun k => X2 (ix2 P k))
          (fun k q => W (ix3 (0 : Fin 3) k q)) (fun k q => W (ix3 (1 : Fin 3) k q)) (fun k q => W (ix3 (2 : Fin 3) k q))
          (fun q => B (ix2 (0 : Fin 1) q)) q := rfl

/-- The whole network's last stage as a whole array: entry (P, r) is `rowLogit` of row P. -/
def logitArr {n d e o : ℕ} (X0 X1 X2 : (⟨2, ![n, d]⟩ : Shape).Idx → EReal) (W : (⟨3, ![3, d, e]⟩ : Shape).Idx → EReal)
    (B : (⟨2, ![1, e]⟩ : Shape).Idx → EReal) (Wfc : (⟨2, ![e, o]⟩ : Shape).Idx → EReal)
    (Bfc : (⟨2, ![1, o]⟩ : Shape).Idx → EReal) : (⟨2, ![n, o]⟩ : Shape).Idx → EReal := fun i =>
  rowLogit (fun k => X0 (ix2 (⟨(i 0).val, (i 0).isLt⟩ : Fin n) k)) (fun k => X1 (ix2 (⟨(i 0).val, (i 0).isLt⟩ : Fin n) k))
    (fun k => X2 (ix2 (⟨(i 0).val, (i 0).isLt⟩ : Fin n) k))
    (fun k q => W (ix3 (0 : Fin 3) k q)) (fun k q => W (ix3 (1 : Fin 3) k q)) (fun k q => W (ix3 (2 : Fin 3) k q))
    (fun q => B (ix2 (0 : Fin 1) q)) (fun j r => Wfc (ix2 j r)) (fun r => Bfc (ix2 (0 : Fin 1) r))
    (⟨(i 1).val, (i 1).isLt⟩ : Fin o)

theorem logitArr_apply {n d e o : ℕ} (X0 X1 X2 : (⟨2, ![n, d]⟩ : Shape).Idx → EReal)
    (W : (⟨3, ![3, d, e]⟩ : Shape).Idx → EReal) (B : (⟨2, ![1, e]⟩ : Shape).Idx → EReal)
    (Wfc : (⟨2, ![e, o]⟩ : Shape).Idx → EReal) (Bfc : (⟨2, ![1, o]⟩ : Shape).Idx → EReal) (P : Fin n) (r : Fin o) :
    logitArr X0 X1 X2 W B Wfc Bfc (ix2 P r)
      = rowLogit (fun k => X0 (ix2 P k)) (fun k => X1 (ix2 P k)) (fun k => X2 (ix2 P k))
          (fun k q => W (ix3 (0 : Fin 3) k q)) (fun k q => W (ix3 (1 : Fin 3) k q)) (fun k q => W (ix3 (2 : Fin 3) k q))
          (fun q => B (ix2 (0 : Fin 1) q)) (fun j r => Wfc (ix2 j r)) (fun r => Bfc (ix2 (0 : Fin 1) r)) r := rfl

end Cert.ChebSpec

end
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.Region0.lean ====
/-
  What the first kernel region leaves in its output array, as one function of the arrays it is entered with.

  The region walks 25 grid points; point t works on rows 2000·t … 2000·t + 1999 of the three feature matrices and
  writes the same rows of the output. At one entry (p, q) of its block the body computes

      max (((x0[p,:] · W[0,:,q] + x1[p,:] · W[1,:,q]) + x2[p,:] · W[2,:,q]) + b[0,q]) 0,

  which is `rowOut` of row p of each block, of the three slabs of the stacked weights and of the bias row. Row p of
  block t is row 2000·t + p of the array, the weights and the bias are the same at every point, and the 25 blocks
  of 2000 rows fill the 50000 rows: so the array ends holding `layerArr` of the five arrays, entry by entry.
-/
import proofs.«114510_j14980845928730_1_alg».proof.Proof.Gen.KernelIdeal.Frame
import proofs.«114510_j14980845928730_1_alg».proof.Proof.ChebSpec
import proofs.«114510_j14980845928730_1_alg».proof.Proof.LibContractPlain
import Idealize.ShloMosaic.Lib.ValueLayout
import Idealize.ShloMosaic.Lib.ValueIdx
import Idealize.ShloMosaic.Lib.Pipeline.Value

set_option maxRecDepth 16384

noncomputable section

namespace Cert.KernelIdeal.Region0

open Idealize.ShloMosaic Idealize.ShloMosaic.TcCoe Idealize.SL.Sem Idealize.ShloMosaic.ValueIdx
open Cert.KernelIdeal Cert.KernelIdeal.Gen Cert.ChebSpec

/-! ## The body's arithmetic at one entry -/

/-- The body's value at entry (p, q), over the seven vectors it has loaded: three products of a row by a column of a
    weight slab (each matrix product accumulates into zeros, so it is the plain finite sum; the changes of float format
    and the casts to the same shape are the identity; a slab [1, 96, 64] viewed [96, 64] is read at (0, k, q)), summed
    left to right, plus the bias row broadcast over the rows, rectified against the constant 0. -/
theorem pay_core (v0 v2 v5 : Vec Ideal S2000x96 .f32) (v8 v11 v14 : Vec Ideal S1x96x64 .f32) (v22 : Vec Ideal S1x64 .f32)
    (p : Fin 2000) (q : Fin 64) :
    k0_pay1 v0 v2 v5 v8 v11 v14 v22 (ix2 p q)
      = rowOut (fun k => v0 (ix2 p k)) (fun k => v2 (ix2 p k)) (fun k => v5 (ix2 p k))
          (fun k q => v8 (ix3 (0 : Fin 1) k q)) (fun k q => v11 (ix3 (0 : Fin 1) k q)) (fun k q => v14 (ix3 (0 : Fin 1) k q))
          (fun q => v22 (ix2 (0 : Fin 1) q)) q := by
  unfold k0_pay1 rowOut
  refine (maximumf_apply _ _ _).trans ?_
  refine congrArg₂ max ?_ Ideal.ofBits_zero_f32
  refine (addf_apply _ _ _).trans (congrArg₂ (· + ·) ?_ ?_)
  · refine (addf_apply _ _ _).trans (congrArg₂ (· + ·) ?_ ?_)
    · refine (addf_apply _ _ _).trans (congrArg₂ (· + ·) ?_ ?_)
      · refine (Cert.Lib.ContractPlain.matmulZero_apply _ rfl none _ _ p q).trans (Finset.sum_congr rfl fun k _ => ?_)
        exact congrArg₂ (· * ·) rfl (shapeCast_1ab_ab_apply v8 _ k q)
      · refine (Cert.Lib.ContractPlain.matmulZero_apply _ rfl none _ _ p q).trans (Finset.sum_congr rfl fun k _ => ?_)
        exact congrArg₂ (· * ·) (congrFun (shapeCast_self v2 _) (ix2 p k)) (shapeCast_1ab_ab_apply v11 _ k q)
    · refine (Cert.Lib.ContractPlain.matmulZero_apply _ rfl none _ _ p q).trans (Finset.sum_congr rfl fun k _ => ?_)
      exact congrArg₂ (· * ·) (congrFun (shapeCast_self v5 _) (ix2 p k)) (shapeCast_1ab_ab_apply v14 _ k q)
  · refine (broadcastTo_1b_ab_apply _ _ p q).trans ?_
    exact congrFun (shapeCast_self v22 _) (ix2 (0 : Fin 1) q)

/-- The zero offsets of a rank-2 access, spelt as the constant function. -/
theorem hz : (![0, 0] : Fin 2 → Nat) = fun _ => 0 := funext fun a => by fin_cases a <;> rfl

/-- Slab s of the stacked weights, loaded through the unit rectangle of sizes [1, 96, 64] at offsets (s, 0, 0), read
    at (0, k, q), is the stack at (s, k, q): each coordinate is offset + 1 · coordinate. -/
theorem ld_slab (x3 : Vec Ideal S3x96x64 .f32) (k : Fin 96) (q : Fin 64) :
    View.ld x3 r0_1 (ix3 (0 : Fin 1) k q) = x3 (ix3 (0 : Fin 3) k q)
    ∧ View.ld x3 r0_2 (ix3 (0 : Fin 1) k q) = x3 (ix3 (1 : Fin 3) k q)
    ∧ View.ld x3 r0_3 (ix3 (0 : Fin 1) k q) = x3 (ix3 (2 : Fin 3) k q) := by
  refine ⟨congrArg x3 (funext fun a => Fin.ext ?_), congrArg x3 (funext fun a => Fin.ext ?_), congrArg x3 (funext fun a => Fin.ext ?_)⟩
  · match a with
    | ⟨0, _⟩ => rfl
    | ⟨1, _⟩ => show 0 + 1 * k.val = k.val; omega
    | ⟨2, _⟩ => show 0 + 1 * q.val = q.val; omega
  · match a with
    | ⟨0, _⟩ => rfl
    | ⟨1, _⟩ => show 0 + 1 * k.val = k.val; omega
    | ⟨2, _⟩ => show 0 + 1 * q.val = q.val; omega
  · match a with
    | ⟨0, _⟩ => rfl
    | ⟨1, _⟩ => show 0 + 1 * k.val = k.val; omega
    | ⟨2, _⟩ => show 0 + 1 * q.val = q.val; omega

/-- THE PAYLOAD AT AN ENTRY, over the five staged blocks: the three feature blocks and the bias block are loaded whole,
    the weight block slab by slab, so entry (p, q) is `rowOut` of row p of each feature block, of the three slabs and of
    the bias row. -/
theorem pay_apply (x0 x1 x2 : Vec Ideal S2000x96 .f32) (x3 : Vec Ideal S3x96x64 .f32) (x4 : Vec Ideal S1x64 .f32)
    (p : Fin 2000) (q : Fin 64) :
    k0_pay1 (View.ld x0 r0_0) (View.ld x1 r0_0) (View.ld x2 r0_0) (View.ld x3 r0_1) (View.ld x3 r0_2) (View.ld x3 r0_3) (View.ld x4 r0_4) (ix2 p q)
      = rowOut (fun k => x0 (ix2 p k)) (fun k => x1 (ix2 p k)) (fun k => x2 (ix2 p k))
          (fun k q => x3 (ix3 (0 : Fin 3) k q)) (fun k q => x3 (ix3 (1 : Fin 3) k q)) (fun k q => x3 (ix3 (2 : Fin 3) k q))
          (fun q => x4 (ix2 (0 : Fin 1) q)) q := by
  refine (pay_core _ _ _ _ _ _ _ p q).trans ?_
  rw [View.ld_unit_zero (S := S2000x96) hz _ x0, View.ld_unit_zero (S := S2000x96) hz _ x1, View.ld_unit_zero (S := S2000x96) hz _ x2,
    View.ld_unit_zero (S := S1x64) hz _ x4]
  have e1 : (fun (k : Fin 96) (q : Fin 64) => View.ld x3 r0_1 (ix3 (0 : Fin 1) k q)) = fun k q => x3 (ix3 (0 : Fin 3) k q) :=
    funext fun k => funext fun q => (ld_slab x3 k q).1
  have e2 : (fun (k : Fin 96) (q : Fin 64) => View.ld x3 r0_2 (ix3 (0 : Fin 1) k q)) = fun k q => x3 (ix3 (1 : Fin 3) k q) :=
    funext fun k => funext fun q => (ld_slab x3 k q).2.1
  have e3 : (fun (k : Fin 96) (q : Fin 64) => View.ld x3 r0_3 (ix3 (0 : Fin 1) k q)) = fun k q => x3 (ix3 (2 : Fin 3) k q) :=
    funext fun k => funext fun q => (ld_slab x3 k q).2.2
  rw [e1, e2, e3]

/-- `rowOut` of equal rows, slabs and bias is equal. -/
theorem rowOut_congr {d e : ℕ} {r0 r0' r1 r1' r2 r2' : Fin d → EReal} {w0 w0' w1 w1' w2 w2' : Fin d → Fin e → EReal}
    {b b' : Fin e → EReal} (h0 : r0 = r0') (h1 : r1 = r1') (h2 : r2 = r2') (g0 : w0 = w0') (g1 : w1 = w1') (g2 : w2 = w2')
    (hb : b = b') (q : Fin e) : rowOut r0 r1 r2 w0 w1 w2 b q = rowOut r0' r1' r2' w0' w1' w2' b' q := by
  subst h0 h1 h2 g0 g1 g2 hb; rfl

/-! ## What one grid point writes back -/

/-- The index maps over the 25 grid points: the three feature windows and the output window sit at block (t, 0) at
    point t; the weight and bias windows sit at block 0 on every axis at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT t WRITES BACK is block t of `layerArr` of the five arrays as the region finds them: entry (p, q) of the
    block is the payload there, each feature block's row p is row 2000·t + p of its array (a block's coordinate in its
    array is block index × block size + 1 × the coordinate inside the block), the weight and bias blocks are their
    whole arrays, and entry (p, q) of the output block is entry (2000·t + p, q) of the output array. -/
theorem flushed_eq (V : (c : Dev nD) → (b : Ref sig .tc) → Buf (Elt Ideal) ((c : Thread nD τ).loc b)) (c : Dev nD)
    (t : Fin cfg0.N) :
    (dat0 (F := Ideal) V c).flushed 5 t = ((cfg0.win 5).blk t).view.read (Elt Ideal)
      (layerArr (n := 50000) (d := 96) (e := 64) (V c main_arg0) (V c main_v49) (V c main_v65) (V c main_arg3) (V c main_v66)) := by
  show (cfg0.win 5).cut (grid0.coords t) ((dat0 V c).after 5 t) = _
  rw [after0_5]
  unfold out0_5
  rw [View.canon_unit_zero hz]
  funext j
  obtain ⟨p, q, rfl⟩ : ∃ (p : Fin 2000) (q : Fin 64), j = ix2 p q := ⟨j 0, j 1, eq_ix2 j⟩
  obtain ⟨a00, a01, a10, a11, a20, a21, a30, a31, a32, a40, a41, a50, a51⟩ := idx_facts t
  have ht : t.val < 25 := by have h : t.val < grid0.N := t.isLt; rw [N_0] at h; exact h
  have hp : p.val < 2000 := p.isLt
  have hP : t.val * 2000 + p.val < 50000 := by omega
  -- entry (p, q) of the output block is entry (2000·t + p, q) of the output array
  have h5 : ((cfg0.win 5).blk t).view.emb (ix2 p q) = ix2 (⟨t.val * 2000 + p.val, hP⟩ : Fin 50000) q := by
    funext a; apply Fin.ext
    match a with
    | ⟨0, _⟩ => show win0_5.index t (0 : Fin 2) * 2000 + 1 * p.val = t.val * 2000 + p.val; omega
    | ⟨1, _⟩ => show win0_5.index t (1 : Fin 2) * 64 + 1 * q.val = q.val; omega
  -- row p of each feature block is row 2000·t + p of its array
  have b0 : ∀ k : Fin 96, iblk0 V c 0 t (ix2 p k) = V c main_arg0 (ix2 (⟨t.val * 2000 + p.val, hP⟩ : Fin 50000) k) := fun k => by
    show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = t.val * 2000 + p.val; omega
    | ⟨1, _⟩ => show win0_0.index t (1 : Fin 2) * 96 + 1 * k.val = k.val; omega
  have b1 : ∀ k : Fin 96, iblk0 V c 1 t (ix2 p k) = V c main_v49 (ix2 (⟨t.val * 2000 + p.val, hP⟩ : Fin 50000) k) := fun k => by
    show V c main_v49 (((cfg0.win 1).blk t).view.emb (ix2 p k)) = _
    refine congrArg (V c main_v49) (funext fun a => Fin.ext ?_)
    match a with
    | ⟨0, _⟩ => show win0_1.index t (0 : Fin 2) * 2000 + 1 * p.val = t.val * 2000 + p.val; omega
    | ⟨1, _⟩ => show win0_1.index t (1 : Fin 2) * 96 + 1 * k.val = k.val; omega
  have b2 : ∀ k : Fin 96, iblk0 V c 2 t (ix2 p k) = V c main_v65 (ix2 (⟨t.val * 2000 + p.val, hP⟩ : Fin 50000) k) := fun k => by
    show V c main_v65 (((cfg0.win 2).blk t).view.emb (ix2 p k)) = _
    refine congrArg (V c main_v65) (funext fun a => Fin.ext ?_)
    match a with
    | ⟨0, _⟩ => show win0_2.index t (0 : Fin 2) * 2000 + 1 * p.val = t.val * 2000 + p.val; omega
    | ⟨1, _⟩ => show win0_2.index t (1 : Fin 2) * 96 + 1 * k.val = k.val; omega
  -- the weight block and the bias block are their whole arrays
  have b3 : ∀ (s : Fin 3) (k : Fin 96) (r : Fin 64), iblk0 V c 3 t (ix3 s k r) = V c main_arg3 (ix3 s k r) := fun s k r => by
    show V c main_arg3 (((cfg0.win 3).blk t).view.emb (ix3 s k r)) = _
    refine congrArg (V c main_arg3) (funext fun a => Fin.ext ?_)
    match a with
    | ⟨0, _⟩ => show win0_3.index t (0 : Fin 3) * 3 + 1 * s.val = s.val; omega
    | ⟨1, _⟩ => show win0_3.index t (1 : Fin 3) * 96 + 1 * k.val = k.val; omega
    | ⟨2, _⟩ => show win0_3.index t (2 : Fin 3) * 64 + 1 * r.val = r.val; omega
  have b4 : ∀ r : Fin 64, iblk0 V c 4 t (ix2 (0 : Fin 1) r) = V c main_v66 (ix2 (0 : Fin 1) r) := fun r => by
    show V c main_v66 (((cfg0.win 4).blk t).view.emb (ix2 (0 : Fin 1) r)) = _
    refine congrArg (V c main_v66) (funext fun a => Fin.ext ?_)
    match a with
    | ⟨0, _⟩ => show win0_4.index t (0 : Fin 2) * 1 + 1 * 0 = 0; omega
    | ⟨1, _⟩ => show win0_4.index t (1 : Fin 2) * 64 + 1 * r.val = r.val; omega
  show k0_pay1 (View.ld (iblk0 V c 0 t) r0_0) (View.ld (iblk0 V c 1 t) r0_0) (View.ld (iblk0 V c 2 t) r0_0)
        (View.ld (iblk0 V c 3 t) r0_1) (View.ld (iblk0 V c 3 t) r0_2) (View.ld (iblk0 V c 3 t) r0_3)
        (View.ld (iblk0 V c 4 t) r0_4) (ix2 p q)
      = layerArr (V c main_arg0) (V c main_v49) (V c main_v65) (V c main_arg3) (V c main_v66) (((cfg0.win 5).blk t).view.emb (ix2 p q))
  refine (pay_apply _ _ _ _ _ p q).trans ?_
  refine Eq.trans ?_ (congrArg (layerArr (V c main_arg0) (V c main_v49) (V c main_v65) (V c main_arg3) (V c main_v66)) h5.symm)
  refine Eq.trans ?_ (layerArr_apply _ _ _ _ _ _ q).symm
  exact rowOut_congr (funext b0) (funext b1) (funext b2) (funext fun k => funext fun r => b3 0 k r)
    (funext fun k => funext fun r => b3 1 k r) (funext fun k => funext fun r => b3 2 k r) (funext b4) q

/-! ## The blocks fill the array -/

/-- An index of the output array is in point t's block iff each coordinate is in the block's range on its axis. -/
theorem mem_blk (t : Fin cfg0.N) (i : S50000x64.Idx) :
    i ∈ ((cfg0.win 5).blk t).view.set ↔ ∀ a : Fin 2, win0_5.index t a * S2000x64.size a ≤ (i a).val ∧ (i a).val < win0_5.index t a * S2000x64.size a + S2000x64.size a := by
  show i ∈ ((View.whole main_v67).slice (win0_5.rect t)).set ↔ _
  rw [View.set_slice_whole, Rect.mem_set_unit]
  exact Iff.rfl

/-- Every index (P, q) of the [50000, 64] array lies in the block of the point t = P / 2000, and every point writes
    its block back. -/
theorem cover (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  have hN : (i 0).val / 2000 < cfg0.N := by show _ < grid0.N; rw [N_0]; omega
  refine ⟨⟨(i 0).val / 2000, hN⟩, flush0_5 _, ?_⟩
  rw [mem_blk]
  obtain ⟨-, -, -, -, -, -, -, -, -, -, -, a50, a51⟩ := idx_facts ⟨(i 0).val / 2000, hN⟩
  have a50' : win0_5.index ⟨(i 0).val / 2000, hN⟩ (0 : Fin 2) = (i 0).val / 2000 := a50
  intro a
  match a with
  | ⟨0, _⟩ =>
    show win0_5.index ⟨(i 0).val / 2000, hN⟩ (0 : Fin 2) * 2000 ≤ (i 0).val ∧ (i 0).val < win0_5.index ⟨(i 0).val / 2000, hN⟩ (0 : Fin 2) * 2000 + 2000
    omega
  | ⟨1, _⟩ =>
    show win0_5.index ⟨(i 0).val / 2000, hN⟩ (1 : Fin 2) * 64 ≤ (i 1).val ∧ (i 1).val < win0_5.index ⟨(i 0).val / 2000, hN⟩ (1 : Fin 2) * 64 + 64
    omega

/-! ## The array after the region -/

/-- THE OUTPUT ARRAY after the 25 points is `layerArr` of the three feature arrays, the stacked weights and the bias
    row, as the region finds them: every point writes its block of that one function, and the blocks fill the array. -/
theorem arr (V : (c : Dev nD) → (b : Ref sig .tc) → Buf (Elt Ideal) ((c : Thread nD τ).loc b)) (c : Dev nD) :
    (dat0 (F := Ideal) V c).arrAt 5 cfg0.N
      = layerArr (n := 50000) (d := 96) (e := 64) (V c main_arg0) (V c main_v49) (V c main_v65) (V c main_arg3) (V c main_v66) :=
  (dat0 V c).arrAt_eq_of_cover 5 _ (fun t _ => flushed_eq V c t) cover

end Cert.KernelIdeal.Region0

end
-- ==== Proof.Region1.lean ====
/-
  What the second kernel region leaves in its output array, as one function of the arrays it is entered with.

  The region walks 25 grid points; point t works on rows 2000·t … 2000·t + 1999 of the three feature matrices
  h, Tx1, Tx2 and writes the same rows of the [50000, 2] output. At one entry (p, r) of its block the body computes

      (∑ j, max (((x0[p,:] · W[0,:,j] + x1[p,:] · W[1,:,j]) + x2[p,:] · W[2,:,j]) + b[0,j]) 0 · Wfc[j,r]) + bfc[0,r],

  the second layer's rectified row times the classifier matrix, plus the classifier bias: `rowLogit` of row p of each
  feature block, of the three slabs of the stacked weights, of the bias row, of the classifier matrix and of its bias
  row. Row p of block t is row 2000·t + p of the array, the parameters are the same at every point, and the 25 blocks
  of 2000 rows fill the 50000 rows: so the array ends holding `logitArr` of the seven arrays, entry by entry.
-/
import proofs.«114510_j14980845928730_1_alg».proof.Proof.Gen.KernelIdeal.Frame
import proofs.«114510_j14980845928730_1_alg».proof.Proof.ChebSpec
import proofs.«114510_j14980845928730_1_alg».proof.Proof.LibContractPlain
import Idealize.ShloMosaic.Lib.ValueLayout
import Idealize.ShloMosaic.Lib.ValueIdx
import Idealize.ShloMosaic.Lib.Pipeline.Value

set_option maxRecDepth 16384

noncomputable section

namespace Cert.KernelIdeal.Region1

open Idealize.ShloMosaic Idealize.ShloMosaic.TcCoe Idealize.SL.Sem Idealize.ShloMosaic.ValueIdx
open Cert.KernelIdeal Cert.KernelIdeal.Gen Cert.ChebSpec

/-- The pair of zero offsets is the constant zero. -/
theorem zeros2 : (![0, 0] : Fin 2 → Nat) = fun _ => 0 := funext fun a => by fin_cases a <;> rfl

/-- The slab of the stacked weights at offset s on the first axis, read at (0, k, q), is the stack at (s, k, q). -/
theorem slab_apply (x3 : Vec Ideal S3x64x64 .f32) (s : Fin 3) (inb) (k q : Fin 64) :
    View.ld x3 (Rect.unit (s := S3x64x64) ![s.val, 0, 0] S1x64x64.size inb) (ix3 (0 : Fin 1) k q) = x3 (ix3 s k q) := by
  show x3 _ = x3 _
  congr 1
  funext a
  apply Fin.ext
  match a with
  | ⟨0, _⟩ => show s.val + 1 * 0 = s.val; omega
  | ⟨1, _⟩ => show 0 + 1 * k.val = k.val; omega
  | ⟨2, _⟩ => show 0 + 1 * q.val = q.val; omega

/-- One of the three products of the layer at entry (p, j): the row of the feature block against column j of the
    weight slab, the slab read through its unit leading axis. -/
theorem term_apply (y : Vec Ideal S2000x64 .f32) (w : Vec Ideal S1x64x64 .f32) (p : Fin 2000) (j : Fin 64) :
    matmul dot_S2000x64_S64x64_S2000x64_1_0_0_1_n_n none
        (truncf FTy.bf16 (shapeCast S2000x64 y shapeCasts_S2000x64_S2000x64) bitsLt_bf16_f32)
        (truncf FTy.bf16 (shapeCast S64x64 w shapeCasts_S1x64x64_S64x64) bitsLt_bf16_f32)
        (constant (F := Ideal) S2000x64 FTy.f32 0x00000000#32) (ix2 p j)
      = ∑ k : Fin 64, y (ix2 p k) * w (ix3 (0 : Fin 1) k j) := by
  refine (Cert.Lib.ContractPlain.matmulZero_apply _ rfl none _ _ p j).trans ?_
  refine Finset.sum_congr rfl fun k _ => ?_
  refine congrArg₂ (· * ·) ?_ ?_
  · exact congrFun (shapeCast_self y _) (ix2 p k)
  · exact shapeCast_1ab_ab_apply w _ k j

/-- The whole arithmetic of the body at one entry, over arbitrary loaded blocks. -/
theorem pay_core (y0 y1 y2 : Vec Ideal S2000x64 .f32) (w0 w1 w2 : Vec Ideal S1x64x64 .f32) (b : Vec Ideal S1x64 .f32)
    (wfc : Vec Ideal S64x2 .f32) (bfc : Vec Ideal S1x2 .f32) (p : Fin 2000) (r : Fin 2) :
    k1_pay1 (k1_pay2 y0 y1 y2 w0 w1 w2 b wfc) bfc (ix2 p r)
      = rowLogit (fun k => y0 (ix2 p k)) (fun k => y1 (ix2 p k)) (fun k => y2 (ix2 p k))
          (fun k q => w0 (ix3 (0 : Fin 1) k q)) (fun k q => w1 (ix3 (0 : Fin 1) k q)) (fun k q => w2 (ix3 (0 : Fin 1) k q))
          (fun q => b (ix2 (0 : Fin 1) q)) (fun j r => wfc (ix2 j r)) (fun r => bfc (ix2 (0 : Fin 1) r)) r := by
  unfold k1_pay1 k1_pay2 rowLogit
  refine (addf_apply _ _ _).trans ?_
  refine congrArg₂ (· + ·) ?_ ?_
  · refine (Cert.Lib.ContractPlain.matmulZero_apply _ rfl none _ _ p r).trans ?_
    refine Finset.sum_congr rfl fun j _ => ?_
    refine congrArg₂ (· * ·) ?_ rfl
    unfold rowOut
    refine (truncf_apply (φ := .f32) (ψ := .bf16) _ _ _).trans ?_
    refine (maximumf_apply _ _ _).trans ?_
    refine congrArg₂ max ?_ Ideal.ofBits_zero_f32
    refine (addf_apply _ _ _).trans ?_
    refine congrArg₂ (· + ·) ?_ ?_
    · refine (addf_apply _ _ _).trans ?_
      refine congrArg₂ (· + ·) ?_ (term_apply y2 w2 p j)
      refine (addf_apply _ _ _).trans ?_
      exact congrArg₂ (· + ·) (term_apply y0 w0 p j) (term_apply y1 w1 p j)
    · exact (broadcastTo_1b_ab_apply _ _ p j).trans (congrFun (shapeCast_self b _) _)
  · exact (broadcastTo_1b_ab_apply _ _ p r).trans (congrFun (shapeCast_self bfc _) _)

/-- THE PAYLOAD AT AN ENTRY: what the body stores at (p, r) of its output block is the logit r of row p of its three
    feature blocks, the three slabs of the stacked weights, the bias row, the classifier matrix and its bias row. -/
theorem pay_apply (x0 x1 x2 : Vec Ideal S2000x64 .f32) (x3 : Vec Ideal S3x64x64 .f32) (x4 : Vec Ideal S1x64 .f32)
    (x5 : Vec Ideal S64x2 .f32) (x6 : Vec Ideal S1x2 .f32) (p : Fin 2000) (r : Fin 2) :
    k1_pay1 (k1_pay2 (View.ld x0 r1_0) (View.ld x1 r1_0) (View.ld x2 r1_0) (View.ld x3 r1_1) (View.ld x3 r1_2)
        (View.ld x3 r1_3) (View.ld x4 r1_4) (View.ld x5 r1_5)) (View.ld x6 r1_6) (ix2 p r)
      = rowLogit (fun k => x0 (ix2 p k)) (fun k => x1 (ix2 p k)) (fun k => x2 (ix2 p k))
          (fun k q => x3 (ix3 (0 : Fin 3) k q)) (fun k q => x3 (ix3 (1 : Fin 3) k q)) (fun k q => x3 (ix3 (2 : Fin 3) k q))
          (fun q => x4 (ix2 (0 : Fin 1) q)) (fun j r => x5 (ix2 j r)) (fun r => x6 (ix2 (0 : Fin 1) r)) r := by
  refine (pay_core _ _ _ _ _ _ _ _ _ p r).trans ?_
  have e0 : View.ld x0 r1_0 = x0 := View.ld_unit_zero zeros2 _ x0
  have e1 : View.ld x1 r1_0 = x1 := View.ld_unit_zero zeros2 _ x1
  have e2 : View.ld x2 r1_0 = x2 := View.ld_unit_zero zeros2 _ x2
  have e4 : View.ld x4 r1_4 = x4 := View.ld_unit_zero zeros2 _ x4
  have e5 : View.ld x5 r1_5 = x5 := View.ld_unit_zero zeros2 _ x5
  have e6 : View.ld x6 r1_6 = x6 := View.ld_unit_zero zeros2 _ x6
  have s0 : ∀ k q : Fin 64, View.ld x3 r1_1 (ix3 (0 : Fin 1) k q) = x3 (ix3 (0 : Fin 3) k q) := fun k q => slab_apply x3 0 _ k q
  have s1 : ∀ k q : Fin 64, View.ld x3 r1_2 (ix3 (0 : Fin 1) k q) = x3 (ix3 (1 : Fin 3) k q) := fun k q => slab_apply x3 1 _ k q
  have s2 : ∀ k q : Fin 64, View.ld x3 r1_3 (ix3 (0 : Fin 1) k q) = x3 (ix3 (2 : Fin 3) k q) := fun k q => slab_apply x3 2 _ k q
  rw [e0, e1, e2, e4, e5, e6]
  simp only [s0, s1, s2]

/-- The printed index maps, decided over the grid: the three feature windows and the output move together (block t on the
    rows, block 0 on the columns); the weight and bias windows stay at block 0 on every axis. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_7.index t (0 : Fin 2) = t.val ∧ win1_7.index t (1 : Fin 2) = 0
    ∧ win1_3.index t (0 : Fin 3) = 0 ∧ win1_3.index t (1 : Fin 3) = 0 ∧ win1_3.index t (2 : Fin 3) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- The grid has 25 points. -/
theorem point_lt (t : Fin cfg1.N) : t.val < 25 := lt_of_lt_of_eq t.isLt N_1

/-- Row p of block t is row t * 2000 + p of the array. -/
theorem row_lt (t : Fin cfg1.N) (p : Fin 2000) : t.val * 2000 + p.val < 50000 := by
  have := point_lt t; have := p.isLt; omega

/-- Entry (p, q) of the output block of point t sits at (t * 2000 + p, q) of the output array. -/
theorem out_emb (t : Fin cfg1.N) (p : Fin 2000) (q : Fin 2) :
    ((cfg1.win 7).blk t).view.emb (ix2 p q) = (ix2 (⟨t.val * 2000 + p.val, row_lt t p⟩ : Fin 50000) q : S50000x2.Idx) := by
  obtain ⟨-, -, -, -, -, -, e0, e1, -⟩ := idx_facts t
  funext a; apply Fin.ext
  match a with
  | ⟨0, _⟩ => show win1_7.index t (0 : Fin 2) * 2000 + 1 * p.val = t.val * 2000 + p.val; rw [e0]; omega
  | ⟨1, _⟩ => show win1_7.index t (1 : Fin 2) * 2 + 1 * q.val = q.val; rw [e1]; omega

section Blocks

variable (V : (c : Dev nD) → (b : Ref sig .tc) → Buf (Elt Ideal) ((c : Thread nD τ).loc b)) (c : Dev nD)

/-- Row p of the first feature block of point t is row t * 2000 + p of the first feature matrix. -/
theorem blk0_apply (t : Fin cfg1.N) (p : Fin 2000) (k : Fin 64) :
    iblk1 V c 0 t (ix2 p k) = V c main_v67 (ix2 (⟨t.val * 2000 + p.val, row_lt t p⟩ : Fin 50000) k) := by
  obtain ⟨e0, e1, -⟩ := idx_facts t
  show V c main_v67 (((cfg1.win 0).blk t).view.emb (ix2 p k)) = V c main_v67 _
  refine congrArg (V c main_v67) ?_
  funext a; apply Fin.ext
  match a with
  | ⟨0, _⟩ => show win1_0.index t (0 : Fin 2) * 2000 + 1 * p.val = t.val * 2000 + p.val; rw [e0]; omega
  | ⟨1, _⟩ => show win1_0.index t (1 : Fin 2) * 64 + 1 * k.val = k.val; rw [e1]; omega

/-- The same for the second feature matrix. -/
theorem blk1_apply (t : Fin cfg1.N) (p : Fin 2000) (k : Fin 64) :
    iblk1 V c 1 t (ix2 p k) = V c main_v80 (ix2 (⟨t.val * 2000 + p.val, row_lt t p⟩ : Fin 50000) k) := by
  obtain ⟨-, -, e0, e1, -⟩ := idx_facts t
  show V c main_v80 (((cfg1.win 1).blk t).view.emb (ix2 p k)) = V c main_v80 _
  refine congrArg (V c main_v80) ?_
  funext a; apply Fin.ext
  match a with
  | ⟨0, _⟩ => show win1_1.index t (0 : Fin 2) * 2000 + 1 * p.val = t.val * 2000 + p.val; rw [e0]; omega
  | ⟨1, _⟩ => show win1_1.index t (1 : Fin 2) * 64 + 1 * k.val = k.val; rw [e1]; omega

/-- The same for the third feature matrix. -/
theorem blk2_apply (t : Fin cfg1.N) (p : Fin 2000) (k : Fin 64) :
    iblk1 V c 2 t (ix2 p k) = V c main_v96 (ix2 (⟨t.val * 2000 + p.val, row_lt t p⟩ : Fin 50000) k) := by
  obtain ⟨-, -, -, -, e0, e1, -⟩ := idx_facts t
  show V c main_v96 (((cfg1.win 2).blk t).view.emb (ix2 p k)) = V c main_v96 _
  refine congrArg (V c main_v96) ?_
  funext a; apply Fin.ext
  match a with
  | ⟨0, _⟩ => show win1_2.index t (0 : Fin 2) * 2000 + 1 * p.val = t.val * 2000 + p.val; rw [e0]; omega
  | ⟨1, _⟩ => show win1_2.index t (1 : Fin 2) * 64 + 1 * k.val = k.val; rw [e1]; omega

/-- The stacked weights are read whole at every point. -/
theorem blk3_apply (t : Fin cfg1.N) (s : Fin 3) (k q : Fin 64) :
    iblk1 V c 3 t (ix3 s k q) = V c main_arg5 (ix3 s k q) := by
  obtain ⟨-, -, -, -, -, -, -, -, e0, e1, e2, -⟩ := idx_facts t
  show V c main_arg5 (((cfg1.win 3).blk t).view.emb (ix3 s k q)) = V c main_arg5 _
  refine congrArg (V c main_arg5) ?_
  funext a; apply Fin.ext
  match a with
  | ⟨0, _⟩ => show win1_3.index t (0 : Fin 3) * 3 + 1 * s.val = s.val; rw [e0]; omega
  | ⟨1, _⟩ => show win1_3.index t (1 : Fin 3) * 64 + 1 * k.val = k.val; rw [e1]; omega
  | ⟨2, _⟩ => show win1_3.index t (2 : Fin 3) * 64 + 1 * q.val = q.val; rw [e2]; omega

/-- The layer's bias row is read whole at every point. -/
theorem blk4_apply (t : Fin cfg1.N) (u : Fin 1) (q : Fin 64) :
    iblk1 V c 4 t (ix2 u q) = V c main_v97 (ix2 u q) := by
  obtain ⟨-, -, -, -, -, -, -, -, -, -, -, e0, e1, -⟩ := idx_facts t
  show V c main_v97 (((cfg1.win 4).blk t).view.emb (ix2 u q)) = V c main_v97 _
  refine congrArg (V c main_v97) ?_
  funext a; apply Fin.ext
  match a with
  | ⟨0, _⟩ => show win1_4.index t (0 : Fin 2) * 1 + 1 * u.val = u.val; rw [e0]; omega
  | ⟨1, _⟩ => show win1_4.index t (1 : Fin 2) * 64 + 1 * q.val = q.val; rw [e1]; omega

/-- The classifier matrix is read whole at every point. -/
theorem blk5_apply (t : Fin cfg1.N) (j : Fin 64) (r : Fin 2) :
    iblk1 V c 5 t (ix2 j r) = V c main_arg7 (ix2 j r) := by
  obtain ⟨-, -, -, -, -, -, -, -, -, -, -, -, -, e0, e1, -⟩ := idx_facts t
  show V c main_arg7 (((cfg1.win 5).blk t).view.emb (ix2 j r)) = V c main_arg7 _
  refine congrArg (V c main_arg7) ?_
  funext a; apply Fin.ext
  match a with
  | ⟨0, _⟩ => show win1_5.index t (0 : Fin 2) * 64 + 1 * j.val = j.val; rw [e0]; omega
  | ⟨1, _⟩ => show win1_5.index t (1 : Fin 2) * 2 + 1 * r.val = r.val; rw [e1]; omega

/-- The classifier's bias row is read whole at every point. -/
theorem blk6_apply (t : Fin cfg1.N) (u : Fin 1) (r : Fin 2) :
    iblk1 V c 6 t (ix2 u r) = V c main_v98 (ix2 u r) := by
  obtain ⟨-, -, -, -, -, -, -, -, -, -, -, -, -, -, -, e0, e1⟩ := idx_facts t
  show V c main_v98 (((cfg1.win 6).blk t).view.emb (ix2 u r)) = V c main_v98 _
  refine congrArg (V c main_v98) ?_
  funext a; apply Fin.ext
  match a with
  | ⟨0, _⟩ => show win1_6.index t (0 : Fin 2) * 1 + 1 * u.val = u.val; rw [e0]; omega
  | ⟨1, _⟩ => show win1_6.index t (1 : Fin 2) * 2 + 1 * r.val = r.val; rw [e1]; omega

/-- WHAT POINT t WRITES BACK to the output array is block t of the logits computed from the whole arrays the region is
    entered with: every entry of the block is the logit of its own row, and a row of a feature block is a row of the feature
    matrix. -/
theorem flushed_eq (t : Fin cfg1.N) :
    (dat1 (F := Ideal) V c).flushed 7 t
      = ((cfg1.win 7).blk t).view.read (Elt Ideal)
          (logitArr (n := 50000) (d := 64) (e := 64) (o := 2) (V c main_v67) (V c main_v80) (V c main_v96) (V c main_arg5)
            (V c main_v97) (V c main_arg7) (V c main_v98)) := by
  show (cfg1.win 7).cut (grid1.coords t) ((dat1 V c).after 7 t) = _
  rw [after1_7]
  unfold out1_7
  rw [View.canon_unit_zero zeros2]
  refine funext fun (j : S2000x2.Idx) => ?_
  obtain ⟨p, q, rfl⟩ : ∃ (p : Fin 2000) (q : Fin 2), j = ix2 p q := ⟨j 0, j 1, eq_ix2 j⟩
  refine (pay_apply (iblk1 V c 0 t) (iblk1 V c 1 t) (iblk1 V c 2 t) (iblk1 V c 3 t) (iblk1 V c 4 t) (iblk1 V c 5 t)
    (iblk1 V c 6 t) p q).trans ?_
  show _ = logitArr (n := 50000) (d := 64) (e := 64) (o := 2) (V c main_v67) (V c main_v80) (V c main_v96) (V c main_arg5)
    (V c main_v97) (V c main_arg7) (V c main_v98) (((cfg1.win 7).blk t).view.emb (ix2 p q))
  rw [out_emb t p q, logitArr_apply]
  simp only [blk0_apply, blk1_apply, blk2_apply, blk3_apply, blk4_apply, blk5_apply, blk6_apply]

/-- An index of the output array is in point t's block iff each coordinate is in the block's range on its axis. -/
theorem mem_blk (t : Fin cfg1.N) (i : S50000x2.Idx) :
    i ∈ ((cfg1.win 7).blk t).view.set ↔ ∀ a : Fin 2, win1_7.index t a * S2000x2.size a ≤ (i a).val
      ∧ (i a).val < win1_7.index t a * S2000x2.size a + S2000x2.size a := by
  show i ∈ ((View.whole main_v99).slice (win1_7.rect t)).set ↔ _
  rw [View.set_slice_whole, Rect.mem_set_unit]
  exact Iff.rfl

/-- THE COVER: row i of the output array lies in the block of point i / 2000, and every point writes its block back. -/
theorem cover (i : S50000x2.Idx) :
    ∃ t : Fin cfg1.N, (cfg1.win 7).flush t = true ∧ i ∈ ((cfg1.win 7).blk t).view.set := by
  have hi0 : (i 0).val < 50000 := (i 0).isLt
  have hi1 : (i 1).val < 2 := (i 1).isLt
  have hN : grid1.N = 25 := N_1
  have ht : (i 0).val / 2000 < cfg1.N := by show (i 0).val / 2000 < grid1.N; omega
  obtain ⟨-, -, -, -, -, -, e0, e1, -⟩ := idx_facts ⟨(i 0).val / 2000, ht⟩
  refine ⟨⟨(i 0).val / 2000, ht⟩, flush1_7 _, ?_⟩
  rw [mem_blk]
  intro a
  match a with
  | ⟨0, _⟩ =>
    show win1_7.index ⟨(i 0).val / 2000, ht⟩ (0 : Fin 2) * 2000 ≤ (i 0).val
      ∧ (i 0).val < win1_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_7.index ⟨(i 0).val / 2000, ht⟩ (1 : Fin 2) * 2 ≤ (i 1).val
      ∧ (i 1).val < win1_7.index ⟨(i 0).val / 2000, ht⟩ (1 : Fin 2) * 2 + 2
    rw [e1]; omega

end Blocks

/-- THE ARRAY the region leaves: the flushed blocks cover the output array, so it ends holding the logits of the whole
    arrays the region is entered with. -/
theorem arr (V : (c : Dev nD) → (b : Ref sig .tc) → Buf (Elt Ideal) ((c : Thread nD τ).loc b)) (c : Dev nD) :
    (dat1 (F := Ideal) V c).arrAt 7 cfg1.N
      = logitArr (n := 50000) (d := 64) (e := 64) (o := 2) (V c main_v67) (V c main_v80) (V c main_v96) (V c main_arg5) (V c main_v97) (V c main_arg7) (V c main_v98) :=
  (dat1 V c).arrAt_eq_of_cover 7 _ (fun t _ => flushed_eq V c t) cover

end Cert.KernelIdeal.Region1

end
-- ==== Proof.LibRowInDim.lean ====
/-
  The row forms of `broadcast_in_dim`, read at an index given by coordinates: a vector `[b]` laid as the row
  `[1, b]` (its axis sent to axis 1), and a row `[1, b]` repeated down the rows to `[a, b]` (axes sent to
  themselves). This is how a per-column quantity — a bias — is added to every row of a matrix: both read the
  operand at the column coordinate alone. (`b ≠ 1`: on an axis of extent one a broadcast reads coordinate 0
  whatever the index, and the statements would need no hypothesis but another proof.)
-/
import Idealize.ShloMosaic.Lib.Pipeline.Value
import Idealize.ShloMosaic.Lib.ValueIdx

namespace Cert.Lib.RowInDim

open Idealize.ShloMosaic Idealize.ShloMosaic.ValueIdx

variable {α : Type}

/-- A vector `[b]` laid as the row `[1, b]` reads, at `(u, q)`, the vector at `q`. -/
theorem row_apply {b : ℕ} (hb : b ≠ 1) (h : (⟨1, ![b]⟩ : Shape).BroadcastsInDim ⟨2, ![1, b]⟩ ![1])
    (v : (⟨1, ![b]⟩ : Shape).Idx → α) (u : Fin 1) (q : Fin b) :
    broadcastInDim ⟨2, ![1, b]⟩ ![1] h v (ix2 u q) = v (ix1 q) :=
  broadcastInDim_apply _ h v (ix2 u q) (ix1 q) (fun a => match a with
    | ⟨0, _⟩ => by show q.val = if b = 1 then 0 else q.val; rw [if_neg hb])

/-- A row `[1, b]` repeated down the rows to `[a, b]` reads, at `(P, q)`, the row's entry of column `q`. -/
theorem repeat_apply {a b : ℕ} (hb : b ≠ 1) (h : (⟨2, ![1, b]⟩ : Shape).BroadcastsInDim ⟨2, ![a, b]⟩ ![0, 1])
    (v : (⟨2, ![1, b]⟩ : Shape).Idx → α) (P : Fin a) (q : Fin b) :
    broadcastInDim ⟨2, ![a, b]⟩ ![0, 1] h v (ix2 P q) = v (ix2 (0 : Fin 1) q) :=
  broadcastInDim_apply _ h v (ix2 P q) (ix2 (0 : Fin 1) q) (fun ax => match ax with
    | ⟨0, _⟩ => by show 0 = if (1 : ℕ) = 1 then 0 else P.val; rw [if_pos rfl]
    | ⟨1, _⟩ => by show q.val = if b = 1 then 0 else q.val; rw [if_neg hb])

end Cert.Lib.RowInDim
-- ==== Proof.RefLayers.lean ====
/-
  The reference program's two layers, read as the specification's functions.

  Each layer of the reference is the same short chain of whole-array operations: three slabs cut out of the
  stacked weights (a slice of one leading coordinate, then the unit axis dropped), three matrix products of the
  three feature matrices with them, summed left to right, the bias laid as a row and repeated down the rows,
  added, and the rectifier, a maximum with an array of zeros. Read at one entry (P, q) every one of these is a
  pointwise fact: a product is the sum over the contracted coordinate, a slab entry is the stack's entry at
  (s, k, q), the repeated row is the row's entry at column q, and the zero word is the number 0. So the chain
  is, entry by entry, the specification's `rowOut`. The chain is stated once over abstract operands and used
  for both layers; the last stage adds one more product and one more bias.
-/
import proofs.«114510_j14980845928730_1_alg».proof.Proof.Gen.ReferenceIdeal.Read
import proofs.«114510_j14980845928730_1_alg».proof.Proof.ChebSpec
import proofs.«114510_j14980845928730_1_alg».proof.Proof.LibContractPlain
import proofs.«114510_j14980845928730_1_alg».proof.Proof.LibRowInDim
import Idealize.ShloMosaic.Lib.ValueLayout
import Idealize.ShloMosaic.Lib.ValueIdx
import Idealize.ShloMosaic.Lib.Pipeline.Value

noncomputable section

namespace Cert.RefLayers

open Idealize.ShloMosaic Idealize.ShloMosaic.ValueIdx Cert.ReferenceIdeal Cert.ReferenceIdeal.Read Cert.ChebSpec

/-- Slab `s` of a stack `[3, a, b]`, cut out as `[1, a, b]` and cast to `[a, b]`, read at `(k, q)`, is the stack's
    entry at `(s, k, q)`. -/
theorem slab_apply {α : Type} {a b : ℕ} (s : ℕ) (hs : s < 3) (W : (⟨3, ![3, a, b]⟩ : Shape).Idx → α)
    (hsl : (⟨3, ![3, a, b]⟩ : Shape).Slices ![s, 0, 0] ⟨3, ![1, a, b]⟩)
    (hc : (⟨3, ![1, a, b]⟩ : Shape).ShapeCasts ⟨2, ![a, b]⟩) (k : Fin a) (q : Fin b) :
    shapeCast ⟨2, ![a, b]⟩ (extractStridedSlice ⟨3, ![1, a, b]⟩ ![s, 0, 0] W hsl) hc (ix2 k q)
      = W (ix3 (⟨s, hs⟩ : Fin 3) k q) := by
  rw [shapeCast_1ab_ab_apply]
  exact extractStridedSlice_apply _ W hsl _ _ (fun ax => match ax with
    | ⟨0, _⟩ => by show s = s + 0; omega
    | ⟨1, _⟩ => by show k.val = 0 + k.val; omega
    | ⟨2, _⟩ => by show q.val = 0 + q.val; omega)

/-- An array of the zero word, read anywhere, is the number 0. -/
theorem zeros_apply {t : Shape} (hz : (⟨0, ![]⟩ : Shape).BroadcastsInDim t ![]) (i : t.Idx) :
    broadcastInDim t ![] hz (constant (F := Ideal) ⟨0, ![]⟩ .f32 0x00000000#32) i = 0 := by
  rw [broadcastInDim_apply _ hz _ i ix0 (fun a => a.elim0), constant_apply]
  exact Ideal.ofBits_zero_f32

/-- One three-term layer of the reference program over abstract operands: three products with the three slabs of the
    stacked weights summed left to right, the bias row repeated down the rows and added, then the maximum with
    zeros. It is the specification's layer. -/
theorem refLayer_eq {n d e : ℕ} (he : e ≠ 1)
    (D : DotDims ⟨2, ![n, d]⟩ ⟨2, ![d, e]⟩ ⟨2, ![n, e]⟩) (hD : D = DotDims.plain n d e)
    (h0 : (⟨3, ![3, d, e]⟩ : Shape).Slices ![0, 0, 0] ⟨3, ![1, d, e]⟩)
    (h1 : (⟨3, ![3, d, e]⟩ : Shape).Slices ![1, 0, 0] ⟨3, ![1, d, e]⟩)
    (h2 : (⟨3, ![3, d, e]⟩ : Shape).Slices ![2, 0, 0] ⟨3, ![1, d, e]⟩)
    (hc : (⟨3, ![1, d, e]⟩ : Shape).ShapeCasts ⟨2, ![d, e]⟩)
    (hb : (⟨2, ![1, e]⟩ : Shape).BroadcastsInDim ⟨2, ![n, e]⟩ ![0, 1])
    (hz : (⟨0, ![]⟩ : Shape).BroadcastsInDim ⟨2, ![n, e]⟩ ![])
    (X0 X1 X2 : FVec Ideal ⟨2, ![n, d]⟩ .f32) (W : FVec Ideal ⟨3, ![3, d, e]⟩ .f32) (B : FVec Ideal ⟨2, ![1, e]⟩ .f32) :
    (maximumf
      (addf
        (addf
          (addf
            (Host.dotGeneral D none X0 (shapeCast ⟨2, ![d, e]⟩ (extractStridedSlice ⟨3, ![1, d, e]⟩ ![0, 0, 0] W h0) hc))
            (Host.dotGeneral D none X1 (shapeCast ⟨2, ![d, e]⟩ (extractStridedSlice ⟨3, ![1, d, e]⟩ ![1, 0, 0] W h1) hc)))
          (Host.dotGeneral D none X2 (shapeCast ⟨2, ![d, e]⟩ (extractStridedSlice ⟨3, ![1, d, e]⟩ ![2, 0, 0] W h2) hc)))
        (broadcastInDim ⟨2, ![n, e]⟩ ![0, 1] hb B))
      (broadcastInDim ⟨2, ![n, e]⟩ ![] hz (constant (F := Ideal) ⟨0, ![]⟩ .f32 0x00000000#32))
        : FVec Ideal ⟨2, ![n, e]⟩ .f32)
      = layerArr X0 X1 X2 W B := by
  funext i
  obtain ⟨P, q, rfl⟩ : ∃ (P : Fin n) (q : Fin e), i = ix2 P q := ⟨i 0, i 1, eq_ix2 i⟩
  rw [layerArr_apply]
  unfold rowOut
  have e0 : ∀ k : Fin d, shapeCast ⟨2, ![d, e]⟩ (extractStridedSlice ⟨3, ![1, d, e]⟩ ![0, 0, 0] W h0) hc (ix2 k q)
      = W (ix3 (0 : Fin 3) k q) := fun k => slab_apply 0 (by omega) W h0 hc k q
  have e1 : ∀ k : Fin d, shapeCast ⟨2, ![d, e]⟩ (extractStridedSlice ⟨3, ![1, d, e]⟩ ![1, 0, 0] W h1) hc (ix2 k q)
      = W (ix3 (1 : Fin 3) k q) := fun k => slab_apply 1 (by omega) W h1 hc k q
  have e2 : ∀ k : Fin d, shapeCast ⟨2, ![d, e]⟩ (extractStridedSlice ⟨3, ![1, d, e]⟩ ![2, 0, 0] W h2) hc (ix2 k q)
      = W (ix3 (2 : Fin 3) k q) := fun k => slab_apply 2 (by omega) W h2 hc k q
  rw [maximumf_apply, addf_apply, addf_apply, addf_apply,
    Cert.Lib.ContractPlain.hostDot_apply D hD none X0 _ P q,
    Cert.Lib.ContractPlain.hostDot_apply D hD none X1 _ P q,
    Cert.Lib.ContractPlain.hostDot_apply D hD none X2 _ P q,
    Cert.Lib.RowInDim.repeat_apply he hb B P q, zeros_apply hz]
  simp only [e0, e1, e2]

theorem hidden_eq (a0 : (⟨S50000x96, .f32⟩ : BufTy).Contents (Elt Ideal)) (a1 : (⟨S2x800000, .i32⟩ : BufTy).Contents (Elt Ideal))
    (a2 : (⟨S800000, .f32⟩ : BufTy).Contents (Elt Ideal)) (a3 : (⟨S3x96x64, .f32⟩ : BufTy).Contents (Elt Ideal))
    (a4 : (⟨S64, .f32⟩ : BufTy).Contents (Elt Ideal)) :
    val_main_v80 (F := Ideal) a0 a1 a2 a3 a4
      = layerArr (n := 50000) (d := 96) (e := 64) a0 (val_main_v52 (F := Ideal) a0 a1 a2) (val_main_v72 (F := Ideal) a0 a1 a2) a3
          (val_main_v77 (F := Ideal) a4) := by
  unfold val_main_v80 val_main_v79 val_main_v76 val_main_v56 val_main_v39 val_main_v55 val_main_v75 val_main_v78
    val_main_v38 val_main_v37 val_main_v54 val_main_v53 val_main_v74 val_main_v73 val_main_call3_v0 val_main_call3_cst
  exact refLayer_eq (by decide) dot_S50000x96_S96x64_S50000x64_1_0_0_1_n_n rfl _ _ _ _ _ _ a0 _ _ a3 _

theorem logits_eq (a0 : (⟨S50000x96, .f32⟩ : BufTy).Contents (Elt Ideal)) (a1 : (⟨S2x800000, .i32⟩ : BufTy).Contents (Elt Ideal))
    (a2 : (⟨S800000, .f32⟩ : BufTy).Contents (Elt Ideal)) (a3 : (⟨S3x96x64, .f32⟩ : BufTy).Contents (Elt Ideal))
    (a4 : (⟨S64, .f32⟩ : BufTy).Contents (Elt Ideal)) (a5 : (⟨S3x64x64, .f32⟩ : BufTy).Contents (Elt Ideal))
    (a6 : (⟨S64, .f32⟩ : BufTy).Contents (Elt Ideal)) (a7 : (⟨S64x2, .f32⟩ : BufTy).Contents (Elt Ideal))
    (a8 : (⟨S2, .f32⟩ : BufTy).Contents (Elt Ideal)) :
    val_main_v128 (F := Ideal) a0 a1 a2 a3 a4 a5 a6 a7 a8
      = logitArr (n := 50000) (d := 64) (e := 64) (o := 2) (val_main_v80 (F := Ideal) a0 a1 a2 a3 a4)
          (val_main_v96 (F := Ideal) a0 a1 a2 a3 a4) (val_main_v116 (F := Ideal) a0 a1 a2 a3 a4) a5
          (val_main_v121 (F := Ideal) a6) a7 (val_main_v126 (F := Ideal) a8) := by
  have h124 : val_main_v124 (F := Ideal) a0 a1 a2 a3 a4 a5 a6
      = layerArr (n := 50000) (d := 64) (e := 64) (val_main_v80 (F := Ideal) a0 a1 a2 a3 a4)
          (val_main_v96 (F := Ideal) a0 a1 a2 a3 a4) (val_main_v116 (F := Ideal) a0 a1 a2 a3 a4) a5
          (val_main_v121 (F := Ideal) a6) := by
    unfold val_main_v124 val_main_v123 val_main_v120 val_main_v100 val_main_v83 val_main_v99 val_main_v119 val_main_v122
      val_main_v82 val_main_v81 val_main_v98 val_main_v97 val_main_v118 val_main_v117 val_main_call4_v0 val_main_call4_cst
    exact refLayer_eq (by decide) dot_S50000x64_S64x64_S50000x64_1_0_0_1_n_n rfl _ _ _ _ _ _ _ _ _ a5 _
  funext i
  obtain ⟨P, r, rfl⟩ : ∃ (P : Fin 50000) (r : Fin 2), i = ix2 P r := ⟨i 0, i 1, eq_ix2 i⟩
  rw [logitArr_apply]
  unfold rowLogit val_main_v128 val_main_v125 val_main_v127
  rw [addf_apply, Cert.Lib.ContractPlain.hostDot_apply dot_S50000x64_S64x2_S50000x2_1_0_0_1_n_n rfl none _ a7 P r,
    Cert.Lib.RowInDim.repeat_apply (by decide) _ (val_main_v126 (F := Ideal) a8) P r, h124]
  simp only [layerArr_apply]

end Cert.RefLayers

end
-- ==== Proof.KernelValue.lean ====
/-
  The idealized kernel program's result, as the reference's function of the arguments.

  The result array is the second region's output. That region leaves, entry by entry, the logits of the rows of
  the three arrays it is entered with; those arrays are h, L̂·h and 2·L̂·(L̂·h) − h, where h is the first
  region's output, itself the rectified three-term layer of x, L̂·x and 2·L̂·(L̂·x) − x. The reference
  computes the same two layers over whole arrays. Every piece is already at hand: each region's output as one
  whole-array function of its entry arrays, the entry arrays as the reference's stages, and the reference's
  two layers as the same whole-array functions. Here they are chained.
-/
import proofs.«114510_j14980845928730_1_alg».proof.Proof.KernelRun
import proofs.«114510_j14980845928730_1_alg».proof.Proof.HostStages2
import proofs.«114510_j14980845928730_1_alg».proof.Proof.Region0
import proofs.«114510_j14980845928730_1_alg».proof.Proof.Region1
import proofs.«114510_j14980845928730_1_alg».proof.Proof.RefLayers

set_option maxRecDepth 16384

noncomputable section

namespace Cert.KernelIdeal.Result

open Idealize.ShloMosaic Idealize.ShloMosaic.TcCoe Idealize.SL.Sem
open Cert.KernelIdeal Cert.KernelIdeal.Gen Cert.KernelIdeal.HostStages Cert.ChebSpec

variable (m : (ℓ : Loc nD τ sig) → Buf (Elt Ideal) ℓ) (ρ : Dev nD → PrngReg)

/-- After the first region its output array holds the reference's hidden layer of the arguments. -/
theorem hidden (c : Dev nD) :
    W8 m ρ c (Proc.devRef .tc main_v67) = Cert.ReferenceIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W8_arr m ρ c 5).trans ?_
  refine (Cert.KernelIdeal.Region0.arr (V7 m ρ) c).trans ?_
  show layerArr (n := 50000) (d := 96) (e := 64) (W7 m ρ c (Proc.devRef .tc main_arg0)) (W7 m ρ c (Proc.devRef .tc main_v49)) (W7 m ρ c (Proc.devRef .tc main_v65))
    (W7 m ρ c (Proc.devRef .tc main_arg3)) (W7 m ρ c (Proc.devRef .tc main_v66)) = _
  rw [entry_x m ρ c, entry_tx1 m ρ c, entry_tx2 m ρ c, entry_w1 m ρ c, entry_b1 m ρ c]
  exact (Cert.RefLayers.hidden_eq _ _ _ _ _).symm

/-- After the second region the result array holds the reference's logits of the arguments. -/
theorem result (c : Dev nD) :
    W10 m ρ c (Proc.devRef .tc main_v99) = Cert.ReferenceIdeal.Read.val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 7).trans ?_
  refine (Cert.KernelIdeal.Region1.arr (V9 m ρ) c).trans ?_
  show logitArr (n := 50000) (d := 64) (e := 64) (o := 2) (W9 m ρ c (Proc.devRef .tc main_v67)) (W9 m ρ c (Proc.devRef .tc main_v80)) (W9 m ρ c (Proc.devRef .tc main_v96))
    (W9 m ρ c (Proc.devRef .tc main_arg5)) (W9 m ρ c (Proc.devRef .tc main_v97)) (W9 m ρ c (Proc.devRef .tc main_arg7)) (W9 m ρ c (Proc.devRef .tc main_v98)) = _
  rw [entry2_h m ρ c (hidden m ρ c), entry2_tx1 m ρ c (hidden m ρ c), entry2_tx2 m ρ c (hidden m ρ c),
    entry2_w2 m ρ c, entry2_b2 m ρ c, entry2_wfc m ρ c, entry2_bfc m ρ c]
  exact (Cert.RefLayers.logits_eq _ _ _ _ _ _ _ _ _).symm

/-- The program's run, read: the result array ends at the reference's logits of the arguments, and the arguments
    end as launched. -/
theorem run : θ_run defs (onTc (τ := τ) (main (F := Ideal))) ⟨m, fun _ => 0, ρ⟩ (fun r => ∀ c : Dev nD,
      r.2.mem ((c.tc : Thread nD τ).loc main_v99) = Cert.ReferenceIdeal.Read.val_main_v128 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result m ρ c), (h c).2⟩)
    (Cert.KernelIdeal.RunAll.run_value (F := Ideal) m ρ)

end Cert.KernelIdeal.Result

end
-- ==== Proof.lean ====
/-
  A two-layer Chebyshev graph convolution network with a linear classifier: the kernel program against its jnp
  reference, at the ideal values.

  Both programs build the same scaled graph Laplacian from the edge list (self-loops removed, symmetric
  normalisation by the inverse square root of the degrees), propagate the node features over it with the same
  gather, multiply and scatter-add, and form the Chebyshev terms Tx0 = x, Tx1 = L̂·x, Tx2 = 2·L̂·Tx1 − x. They
  differ only in how a layer's dense stage

      relu (((Tx0 · W[0] + Tx1 · W[1]) + Tx2 · W[2]) + b)

  is carried out. The reference computes it with whole-array matrix products. The kernel cuts the 50000 nodes
  into 25 blocks of 2000 rows and computes each block on its own, rounding the operands of every product to a
  shorter float format first and, in the second layer, multiplying by the classifier matrix in the same pass.
  At the ideal values a change of float format is the identity, a product into a zero accumulator is the plain
  sum over the contracted coordinate, and one node's output row depends on that node's rows only; so block by
  block the kernel writes exactly the rows of the reference's arrays, summed in the same order. No algebraic law
  beyond that is needed, and the finiteness of the inputs is never used.

  The proof: each kernel region's output array as one whole-array function of the arrays it is entered with
  (Region0, Region1 over ChebSpec); the arrays it is entered with as the reference's own intermediate stages
  (HostStages, HostStages2); the reference's two layers as the same whole-array functions (RefLayers); the
  kernel program's run with its result buffer's final contents (KernelRun, KernelValue). The ideal pass rewrote
  nothing in the kernel, so the idealization claim is empty; the frames are the generated ones, the reference's
  being its generated run with the result dropped.
-/
import proofs.«114510_j14980845928730_1_alg».proof.Defs
import proofs.«114510_j14980845928730_1_alg».proof.Proof.Gen.Kernel
import proofs.«114510_j14980845928730_1_alg».proof.Proof.Gen.Kernel.Frame
import proofs.«114510_j14980845928730_1_alg».proof.Proof.Gen.KernelIdeal
import proofs.«114510_j14980845928730_1_alg».proof.Proof.Gen.KernelIdeal.Frame
import proofs.«114510_j14980845928730_1_alg».proof.Proof.Gen.ReferenceIdeal
import proofs.«114510_j14980845928730_1_alg».proof.Proof.Gen.ReferenceIdeal.Run
import proofs.«114510_j14980845928730_1_alg».proof.Proof.Gen.ReferenceIdeal.Read
import proofs.«114510_j14980845928730_1_alg».proof.Proof.Gen.Pre_finite_inputs
import proofs.«114510_j14980845928730_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- The ideal pass rewrote no operation of the kernel: there is nothing to preserve. -/
theorem preserves : Cert.preserves_Kernel_KernelIdeal := trivial

/-- From memories agreeing on the arguments both programs run, and both result arrays end at the reference's
    last stage of the (common) arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.ReferenceIdeal.Read.val_main_v128 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v128_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
